-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x80 : Shape := ⟨3, ![32, 8192, 80]⟩
abbrev S32 : Shape := ⟨1, ![32]⟩
abbrev S1024x640 : Shape := ⟨2, ![1024, 640]⟩
abbrev S1024 : Shape := ⟨1, ![1024]⟩
abbrev S_ : Shape := ⟨0, ![]⟩

class Facts : Prop where
  bcast_S_S32x8192x80 : S_.BroadcastsInDim S32x8192x80 (![] : Fin 0 → Fin S32x8192x80.rank)
  reducesTo_S32x8192x80_S_d0_1_2 : S32x8192x80.ReducesTo [0, 1, 2] S_
  h_S_ : 0 < S_.numel
  bcast_S_S1024x640 : S_.BroadcastsInDim S1024x640 (![] : Fin 0 → Fin S1024x640.rank)
  reducesTo_S1024x640_S_d0_1 : S1024x640.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S32x8192x80 .f32) (main_arg1 : IVec S32 32) (main_arg2 : FVec F S1024x640 .f32) (main_arg3 : FVec F S1024 .f32) : IVec S_ 1 :=
  let main_v0 : FVec F S32x8192x80 .f32 := Host.absf main_arg0
  let main_cst : FVec F S_ .f32 := constant S_ .f32 0x7F800000#32
  let main_v1 : FVec F S32x8192x80 .f32 := broadcastInDim S32x8192x80 ![] bcast_S_S32x8192x80 main_cst
  let main_v2 : IVec S32x8192x80 1 := cmpf .olt main_v0 main_v1
  let main_c : IVec S_ 1 := constantI S_ 1 1#1
  let main_v3 : IVec S_ 1 := (fun x v => Host.reduce IntOp.andi x v reducesTo_S32x8192x80_S_d0_1_2 h_S_) main_v2 main_c
  let main_v4 : FVec F S1024x640 .f32 := Host.absf main_arg2
  let main_cst_0 : FVec F S_ .f32 := constant S_ .f32 0x7F800000#32
  let main_v5 : FVec F S1024x640 .f32 := broadcastInDim S1024x640 ![] bcast_S_S1024x640 main_cst_0
  let main_v6 : IVec S1024x640 1 := cmpf .olt main_v4 main_v5
  let main_c_1 : IVec S_ 1 := constantI S_ 1 1#1
  let main_v7 : IVec S_ 1 := (fun x v => Host.reduce IntOp.andi x v reducesTo_S1024x640_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S32x8192x80 : Shape := ⟨3, ![32, 8192, 80]⟩
abbrev S32 : Shape := ⟨1, ![32]⟩
abbrev S1024x640 : Shape := ⟨2, ![1024, 640]⟩
abbrev S1024 : Shape := ⟨1, ![1024]⟩
abbrev S_ : Shape := ⟨0, ![]⟩
abbrev S640x1024 : Shape := ⟨2, ![640, 1024]⟩
abbrev S1x1024 : Shape := ⟨2, ![1, 1024]⟩
abbrev S2728x16x1024 : Shape := ⟨3, ![2728, 16, 1024]⟩
abbrev S32x264x80 : Shape := ⟨3, ![32, 264, 80]⟩
abbrev S32x8x80 : Shape := ⟨3, ![32, 8, 80]⟩
abbrev S88x16x1024 : Shape := ⟨3, ![88, 16, 1024]⟩
abbrev S88x32x640 : Shape := ⟨3, ![88, 32, 640]⟩
abbrev S32x272x80 : Shape := ⟨3, ![32, 272, 80]⟩
abbrev S272x32x80 : Shape := ⟨3, ![272, 32, 80]⟩
abbrev S264x32x80 : Shape := ⟨3, ![264, 32, 80]⟩
abbrev S88x3x32x80 : Shape := ⟨4, ![88, 3, 32, 80]⟩
abbrev S88x1x32x80 : Shape := ⟨4, ![88, 1, 32, 80]⟩
abbrev S88x32x80 : Shape := ⟨3, ![88, 32, 80]⟩
abbrev S22x32x640 : Shape := ⟨3, ![22, 32, 640]⟩
abbrev S704x640 : Shape := ⟨2, ![704, 640]⟩
abbrev S704x1024 : Shape := ⟨2, ![704, 1024]⟩
abbrev S22x32x1024 : Shape := ⟨3, ![22, 32, 1024]⟩
abbrev S22x16x1024 : Shape := ⟨3, ![22, 16, 1024]⟩

abbrev nBuf : Space → Nat
  | .hbm => 29
  | .vmem => 9
  | .smem => 0
  | _ => 0

abbrev bufTy : (tb : Table) → Fin (tcTables nBuf tb) → BufTy
  | .hbm, ⟨0, _⟩ => ⟨S32x8192x80, .f32⟩
  | .hbm, ⟨1, _⟩ => ⟨S32, .i32⟩
  | .hbm, ⟨2, _⟩ => ⟨S1024x640, .f32⟩
  | .hbm, ⟨3, _⟩ => ⟨S1024, .f32⟩
  | .hbm, ⟨4, _⟩ => ⟨S_, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i1⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S640x1024, .f32⟩
  | .hbm, ⟨26, _⟩ => ⟨S640x1024, .bf16⟩
  | .hbm, ⟨27, _⟩ => ⟨S1x1024, .f32⟩
  | .hbm, ⟨28, _⟩ => ⟨S2728x16x1024, .f32⟩
  | .local _ .vmem, ⟨0, _⟩ => ⟨S32x264x80, .f32⟩
  | .local _ .vmem, ⟨1, _⟩ => ⟨S32x264x80, .f32⟩
  | .local _ .vmem, ⟨2, _⟩ => ⟨S32x8x80, .f32⟩
  | .local _ .vmem, ⟨3, _⟩ => ⟨S32x8x80, .f32⟩
  | .local _ .vmem, ⟨4, _⟩ => ⟨S640x1024, .bf16⟩
  | .local _ .vmem, ⟨5, _⟩ => ⟨S1x1024, .f32⟩
  | .local _ .vmem, ⟨6, _⟩ => ⟨S88x16x1024, .f32⟩
  | .local _ .vmem, ⟨7, _⟩ => ⟨S88x16x1024, .f32⟩
  | .local _ .vmem, ⟨8, _⟩ => ⟨S88x32x640, .bf16⟩
  | _, _ => ⟨S32x8192x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![31], ![false]⟩

@[reducible] def k0_t1_loop : Scf.Loop 32 :=
  let c0_i32 : BitVec 32 := 0#32
  let c4_i32 : BitVec 32 := 4#32
  let v41 : BitVec 32 := Scalar.addi c0_i32 c4_i32
  let c1_i32 : BitVec 32 := 1#32
  ⟨c0_i32, v41, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c22_i32 : BitVec 32 := 22#32
  let v42 : BitVec 32 := Scalar.muli arg7 c22_i32
  v42
def k0_off1 (k0_t1 : Fin k0_t1_loop.trips) : Fin 3 → Nat :=
  let c0_i32 : BitVec 32 := 0#32
  let c1_i32 : BitVec 32 := 1#32
  let arg7 : BitVec 32 := Scf.iv c0_i32 c1_i32 k0_t1
  let c22_i32 : BitVec 32 := 22#32
  let v42 : BitVec 32 := Scalar.muli arg7 c22_i32
  let v43 : BitVec 32 := v42
  let v44 : Index := Scalar.indexCast v43
  let c0_9 : Index := 0#32
  let c0_10 : Index := 0#32
  ![v44.toNat, 0, 0]
def k0_off2 (k0_t1 : Fin k0_t1_loop.trips) : Fin 3 → Nat :=
  let c0_i32 : BitVec 32 := 0#32
  let c1_i32 : BitVec 32 := 1#32
  let arg7 : BitVec 32 := Scf.iv c0_i32 c1_i32 k0_t1
  let c22_i32 : BitVec 32 := 22#32
  let v42 : BitVec 32 := Scalar.muli arg7 c22_i32
  let v43 : BitVec 32 := v42
  let v59 : Index := Scalar.indexCast v43
  let c0_15 : Index := 0#32
  let c0_16 : Index := 0#32
  ![v59.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c33_i32 : BitVec 32 := 33#32
  let v1 : BitVec 32 := Scalar.muli v0 c33_i32
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x264x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8x80 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S640x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S88x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S32 : S_.BroadcastsInDim S32 (![] : Fin 0 → Fin S32.rank)
  transposes_S1024x640_S640x1024_1_0 : S1024x640.Transposes [1, 0] S640x1024
  bitsLt_bf16_f32 : FTy.bits .bf16 < FTy.bits .f32
  shapeCasts_S1024_S1x1024 : S1024.ShapeCasts S1x1024
  inb_S32x264x80_S32x264x80_0_0_0 : ∀ a, (![0, 0, 0] : Fin 3 → Nat) a + S32x264x80.size a ≤ S32x264x80.size a
  h_S32x264x80 : 0 < S32x264x80.numel
  inb_S32x8x80_S32x8x80_0_0_0 : ∀ a, (![0, 0, 0] : Fin 3 → Nat) a + S32x8x80.size a ≤ S32x8x80.size a
  h_S32x8x80 : 0 < S32x8x80.numel
  concatenates_S32x264x80_S32x8x80_S32x272x80_d1 : Shape.Concatenates [S32x264x80, S32x8x80] S32x272x80 1
  transposes_S32x272x80_p1_0_2_S272x32x80 : S32x272x80.Transposes [1, 0, 2] S272x32x80
  slices_S272x32x80_o0_0_0_S264x32x80 : S272x32x80.Slices ![0, 0, 0] S264x32x80
  shapeCasts_S264x32x80_S88x3x32x80 : S264x32x80.ShapeCasts S88x3x32x80
  slices_S88x3x32x80_o0_0_0_0_S88x1x32x80 : S88x3x32x80.Slices ![0, 0, 0, 0] S88x1x32x80
  shapeCasts_S88x1x32x80_S88x32x80 : S88x1x32x80.ShapeCasts S88x32x80
  slices_S272x32x80_o1_0_0_S264x32x80 : S272x32x80.Slices ![1, 0, 0] S264x32x80
  slices_S272x32x80_o2_0_0_S264x32x80 : S272x32x80.Slices ![2, 0, 0] S264x32x80
  slices_S272x32x80_o3_0_0_S264x32x80 : S272x32x80.Slices ![3, 0, 0] S264x32x80
  slices_S272x32x80_o4_0_0_S264x32x80 : S272x32x80.Slices ![4, 0, 0] S264x32x80
  slices_S272x32x80_o5_0_0_S264x32x80 : S272x32x80.Slices ![5, 0, 0] S264x32x80
  slices_S272x32x80_o6_0_0_S264x32x80 : S272x32x80.Slices ![6, 0, 0] S264x32x80
  slices_S272x32x80_o7_0_0_S264x32x80 : S272x32x80.Slices ![7, 0, 0] S264x32x80
  concatenates_S88x32x80_S88x32x80_S88x32x80_S88x32x80_S88x32x80_S88x32x80_S88x32x80_S88x32x80_S88x32x640_d2 : Shape.Concatenates [S88x32x80, S88x32x80, S88x32x80, S88x32x80, S88x32x80, S88x32x80, S88x32x80, S88x32x80] S88x32x640 2
  inb_S88x32x640_S88x32x640_0_0_0 : ∀ a, (![0, 0, 0] : Fin 3 → Nat) a + S88x32x640.size a ≤ S88x32x640.size a
  h_S88x32x640 : 0 < S88x32x640.numel
  shapeCasts_S88x32x640_S88x32x640 : S88x32x640.ShapeCasts S88x32x640
  packedbf16_S88x32x640_S88x32x640_0_0_0 : (Rect.unit (s := S88x32x640) ![0, 0, 0] S88x32x640.size inb_S88x32x640_S88x32x640_0_0_0).PackedRows (EltTy.packing .bf16)
  h_S22x32x640 : 0 < S22x32x640.numel
  shapeCasts_S22x32x640_S704x640 : S22x32x640.ShapeCasts S704x640
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S704x1024 : S1x1024.Broadcasts S704x1024
  shapeCasts_S704x1024_S22x32x1024 : S704x1024.ShapeCasts S22x32x1024
  slices_S22x32x1024_o0_0_0_S22x16x1024 : S22x32x1024.Slices ![0, 0, 0] S22x16x1024
  slices_S22x32x1024_o0_16_0_S22x16x1024 : S22x32x1024.Slices ![0, 16, 0] S22x16x1024
  h_S22x16x1024 : 0 < S22x16x1024.numel
  dot_S704x640_S640x1024_S704x1024_1_0_0_1_n_n_wf : DotDims.WF S704x640 S640x1024 S704x1024 [1] [0] [0] [1] [] []
  hrank0 : 0 < grid0.rank
  k0_t1_ok : k0_t1_loop.OK
  k0_mult1_dvd : ∀ k0_t1 : Fin k0_t1_loop.trips, 22 ∣ (k0_mult1 k0_t1).toNat
  k0_off1_inb : ∀ k0_t1 : Fin k0_t1_loop.trips, ∀ a, (k0_off1 k0_t1) a + S22x32x640.size a ≤ S88x32x640.size a
  k0_off2_inb : ∀ k0_t1 : Fin k0_t1_loop.trips, ∀ a, (k0_off2 k0_t1) a + S22x16x1024.size a ≤ S88x16x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S32x264x80.size a < S32x8192x80.size a
  hwx0_0 : ∀ i : grid0.Coords, EltTy.bits .f32 = 32 ∨ (Rect.unit (s := S32x8192x80) (fun a => cc0_transform_0 i a * S32x264x80.size a) (fun a => (Pipeline.Clip.of (cc0_transform_0 i a) (S32x264x80.size a) (S32x8192x80.size a)).extent (S32x264x80.size a)) fun a => Pipeline.Clip.inb (Pipeline.Clip.ok_of (hstart0_0 i a))).WholeWords (EltTy.packing .f32)
  hwxs0_0 : ∀ i : grid0.Coords, EltTy.bits .f32 = 32 ∨ (Rect.unit (s := S32x264x80) (fun _ => 0) (fun a => (Pipeline.Clip.of (cc0_transform_0 i a) (S32x264x80.size a) (S32x8192x80.size a)).extent (S32x264x80.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x8x80.size a ≤ S32x8192x80.size a
  hwx0_1 : ∀ i : grid0.Coords, EltTy.bits .f32 = 32 ∨ (Rect.block (s := S32x8192x80) S32x8x80.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S640x1024.size a ≤ S640x1024.size a
  hwx0_2 : ∀ i : grid0.Coords, EltTy.bits .bf16 = 32 ∨ (Rect.block (s := S640x1024) S640x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S88x16x1024.size a ≤ S2728x16x1024.size a
  hwx0_4 : ∀ i : grid0.Coords, EltTy.bits .f32 = 32 ∨ (Rect.block (s := S2728x16x1024) S88x16x1024.size (cc0_transform_4 i) (hinb0_4 i)).WholeWords (EltTy.packing .f32)

variable [Facts₀]

def dot_S704x640_S640x1024_S704x1024_1_0_0_1_n_n : DotDims S704x640 S640x1024 S704x1024 where
  lhsContracting := [1]
  rhsContracting := [0]
  lhsNonContracting := [0]
  rhsNonContracting := [1]
  lhsBatch := []
  rhsBatch := []
  wf := dot_S704x640_S640x1024_S704x1024_1_0_0_1_n_n_wf

abbrev win0_0 : Pipeline.Window sig grid0 :=
  Pipeline.Window.ofSpecClip (Memref.whole main_arg0) S32x264x80.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S32x8x80.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S640x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S88x16x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x8192x80 : Shape := ⟨3, ![32, 8192, 80]⟩
abbrev S32 : Shape := ⟨1, ![32]⟩
abbrev S1024x640 : Shape := ⟨2, ![1024, 640]⟩
abbrev S1024 : Shape := ⟨1, ![1024]⟩
abbrev S_ : Shape := ⟨0, ![]⟩
abbrev S32x8190x80 : Shape := ⟨3, ![32, 8190, 80]⟩
abbrev S32x2730x240 : Shape := ⟨3, ![32, 2730, 240]⟩
abbrev S32x2728x240 : Shape := ⟨3, ![32, 2728, 240]⟩
abbrev S32x2728x720 : Shape := ⟨3, ![32, 2728, 720]⟩
abbrev S32x2728x640 : Shape := ⟨3, ![32, 2728, 640]⟩
abbrev S2728x32x640 : Shape := ⟨3, ![2728, 32, 640]⟩
abbrev S2728x32x1024 : Shape := ⟨3, ![2728, 32, 1024]⟩
abbrev S1x1x1024 : Shape := ⟨3, ![1, 1, 1024]⟩
abbrev S2728x16x1024 : Shape := ⟨3, ![2728, 16, 1024]⟩

abbrev nBuf : Space → Nat
  | .hbm => 48
  | .vmem => 0
  | .smem => 0
  | _ => 0

abbrev bufTy : (tb : Table) → Fin (tcTables nBuf tb) → BufTy
  | .hbm, ⟨0, _⟩ => ⟨S32x8192x80, .f32⟩
  | .hbm, ⟨1, _⟩ => ⟨S32, .i32⟩
  | .hbm, ⟨2, _⟩ => ⟨S1024x640, .f32⟩
  | .hbm, ⟨3, _⟩ => ⟨S1024, .f32⟩
  | .hbm, ⟨4, _⟩ => ⟨S_, .i32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i1⟩
  | .hbm, ⟨12, _⟩ => ⟨S32, .i32⟩
  | .hbm, ⟨13, _⟩ => ⟨S32, .i32⟩
  | .hbm, ⟨14, _⟩ => ⟨S_, .i32⟩
  | .hbm, ⟨15, _⟩ => ⟨S32, .i32⟩
  | .hbm, ⟨16, _⟩ => ⟨S32, .i1⟩
  | .hbm, ⟨17, _⟩ => ⟨S32, .i1⟩
  | .hbm, ⟨18, _⟩ => ⟨S_, .i32⟩
  | .hbm, ⟨19, _⟩ => ⟨S32, .i32⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i32⟩
  | .hbm, ⟨25, _⟩ => ⟨S32x8190x80, .f32⟩
  | .hbm, ⟨26, _⟩ => ⟨S32x2730x240, .f32⟩
  | .hbm, ⟨27, _⟩ => ⟨S32x2728x240, .f32⟩
  | .hbm, ⟨28, _⟩ => ⟨S32x2728x240, .f32⟩
  | .hbm, ⟨29, _⟩ => ⟨S32x2728x240, .f32⟩
  | .hbm, ⟨30, _⟩ => ⟨S32x2728x720, .f32⟩
  | .hbm, ⟨31, _⟩ => ⟨S32x2728x640, .f32⟩
  | .hbm, ⟨32, _⟩ => ⟨S2728x32x640, .f32⟩
  | .hbm, ⟨33, _⟩ => ⟨S2728x32x1024, .f32⟩
  | .hbm, ⟨34, _⟩ => ⟨S1x1x1024, .f32⟩
  | .hbm, ⟨35, _⟩ => ⟨S2728x32x1024, .f32⟩
  | .hbm, ⟨36, _⟩ => ⟨S2728x32x1024, .f32⟩
  | .hbm, ⟨37, _⟩ => ⟨S2728x16x1024, .f32⟩
  | .hbm, ⟨38, _⟩ => ⟨S2728x16x1024, .f32⟩
  | .hbm, ⟨39, _⟩ => ⟨S2728x16x1024, .f32⟩
  | .hbm, ⟨40, _⟩ => ⟨S2728x16x1024, .f32⟩
  | .hbm, ⟨41, _⟩ => ⟨S_, .f32⟩
  | .hbm, ⟨42, _⟩ => ⟨S2728x16x1024, .f32⟩
  | .hbm, ⟨43, _⟩ => ⟨S2728x16x1024, .f32⟩
  | .hbm, ⟨44, _⟩ => ⟨S_, .f32⟩
  | .hbm, ⟨45, _⟩ => ⟨S2728x16x1024, .f32⟩
  | .hbm, ⟨46, _⟩ => ⟨S2728x16x1024, .f32⟩
  | .hbm, ⟨47, _⟩ => ⟨S2728x16x1024, .f32⟩
  | _, _ => ⟨S32x8192x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v0 : Ref sig .tc := ⟨.hbm, 21, rfl⟩
abbrev main_c_0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  bcast_S_S32 : S_.BroadcastsInDim S32 (![] : Fin 0 → Fin S32.rank)
  slices_S32x8192x80_S32x8190x80_0_0_0 : S32x8192x80.Slices ![0, 0, 0] S32x8190x80
  shapeCasts_S32x8190x80_S32x2730x240 : S32x8190x80.ShapeCasts S32x2730x240
  slices_S32x2730x240_S32x2728x240_0_0_0 : S32x2730x240.Slices ![0, 0, 0] S32x2728x240
  slices_S32x2730x240_S32x2728x240_0_1_0 : S32x2730x240.Slices ![0, 1, 0] S32x2728x240
  slices_S32x2730x240_S32x2728x240_0_2_0 : S32x2730x240.Slices ![0, 2, 0] S32x2728x240
  concatenates_S32x2728x240_S32x2728x240_S32x2728x240_S32x2728x720_d2 : Shape.Concatenates [S32x2728x240, S32x2728x240, S32x2728x240] S32x2728x720 2
  slices_S32x2728x720_S32x2728x640_0_0_0 : S32x2728x720.Slices ![0, 0, 0] S32x2728x640
  transposes_S32x2728x640_S2728x32x640_1_0_2 : S32x2728x640.Transposes [1, 0, 2] S2728x32x640
  bcast_S1024_S1x1x1024_2 : S1024.BroadcastsInDim S1x1x1024 (![2] : Fin 1 → Fin S1x1x1024.rank)
  bcast_S1x1x1024_S2728x32x1024_0_1_2 : S1x1x1024.BroadcastsInDim S2728x32x1024 (![0, 1, 2] : Fin 3 → Fin S2728x32x1024.rank)
  slices_S2728x32x1024_S2728x16x1024_0_0_0 : S2728x32x1024.Slices ![0, 0, 0] S2728x16x1024
  slices_S2728x32x1024_S2728x16x1024_0_16_0 : S2728x32x1024.Slices ![0, 16, 0] S2728x16x1024
  bcast_S_S2728x16x1024 : S_.BroadcastsInDim S2728x16x1024 (![] : Fin 0 → Fin S2728x16x1024.rank)
  dot_S2728x32x640_S1024x640_S2728x32x1024_2_1_01_0_n_n_wf : DotDims.WF S2728x32x640 S1024x640 S2728x32x1024 [2] [1] [0, 1] [0] [] []

variable [Facts₀]

def dot_S2728x32x640_S1024x640_S2728x32x1024_2_1_01_0_n_n : DotDims S2728x32x640 S1024x640 S2728x32x1024 where
  lhsContracting := [2]
  rhsContracting := [1]
  lhsNonContracting := [0, 1]
  rhsNonContracting := [0]
  lhsBatch := []
  rhsBatch := []
  wf := dot_S2728x32x640_S1024x640_S2728x32x1024_2_1_01_0_n_n_wf

class Facts : Prop extends Facts₀ where

variable [Facts]
-- ==== Proof.BEntry.lean ====
/-
  The host program around the kernel: before the one kernel region, the host computes the output lengths
  (`src_lengths // 3 - 2`), transposes the weight to [640, 1024] and rounds it to bf16, and reshapes the bias to
  [1, 1024]. This module names what each buffer holds when the region is entered, shows the program reduces to the
  region from there, and that none of these host operations writes an argument array.
-/
import proofs.«176770_j1400159338932_2_alg».proof.Proof.Gen.Kernel.Launch
import proofs.«176770_j1400159338932_2_alg».proof.Proof.Gen.Kernel.Skeleton
import proofs.«176770_j1400159338932_2_alg».proof.Proof.Gen.Kernel.Points
import Idealize.ShloMosaic.Lib.Pipeline.FrameBody
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

/-! ## The program up to the region -/

/-- Core `c`'s buffers when the region is entered: after the host operations before it. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is these host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

end Cert.Kernel.Hand

end
-- ==== Proof.BRun.lean ====
/-
  The kernel body, run once on any whole staging buffers. It loads the main block [32, 264, 80] and the tail block
  [32, 8, 80] of the input frames, stores the stacked windows [88, 32, 640] into its scratch buffer, and then in four
  trips of 22 time steps each loads a [22, 32, 640] slab of the scratch, the weight block and the bias row, and stores
  the gated product [22, 16, 1024] into the output block at rows 22·k … 22·k + 21. The run leaves the four input
  buffers as they were, the scratch at some contents, and the output buffer with the four trips' pieces written.
-/
import proofs.«176770_j1400159338932_2_alg».proof.Proof.Gen.Kernel.Launch
import proofs.«176770_j1400159338932_2_alg».proof.Proof.Gen.Kernel.Skeleton
import proofs.«176770_j1400159338932_2_alg».proof.Proof.Gen.Kernel.Loops
import proofs.«176770_j1400159338932_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

set_option maxHeartbeats 4000000 in
/-- The body's run: the pieces the output block ends with (found by the run itself), with the proof that from the
    input buffers at their contents, the output and the scratch at anything, the body reaches its continuation
    holding the inputs unchanged, the output with those pieces written, and the scratch at some contents. -/
noncomputable def kernelRun (c : Dev nD) (i : grid0.Coords) (arg1 : Memref sig .tc .vmem S32x264x80 .f32) (harg1 : arg1.IsWhole) (arg2 : Memref sig .tc .vmem S32x8x80 .f32) (harg2 : arg2.IsWhole) (arg3 : Memref sig .tc .vmem S640x1024 .bf16) (harg3 : arg3.IsWhole) (arg4 : Memref sig .tc .vmem S1x1024 .f32) (harg4 : arg4.IsWhole) (arg5 : Memref sig .tc .vmem S88x16x1024 .f32) (harg5 : arg5.IsWhole) (arg6 : Memref sig .tc .vmem S88x32x640 .bf16) (harg6 : arg6.IsWhole)
    (x0 : Vec F S32x264x80 .f32) (x1 : Vec F S32x8x80 .f32) (x2 : Vec F S640x1024 .bf16) (x3 : Vec F S1x1024 .f32) :
    { L5 : List (View.Piece (Elt F) S88x16x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L5)
                ∗ (∃ d, owns (c : Thread nD τ) arg6 fullShare d)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexists _; isplitr
    swap; · iexact H5
    ipureintro; rfl

end Cert.Kernel.Hand

end
-- ==== Proof.BData.lean ====
/-
  The pipeline around the kernel body: 31 grid points; at point `t` the main window holds rows 264·t … 264·t + 263 of
  the input frames, the tail window rows 264·(t+1) … 264·(t+1) + 7 of the same array, the weight and bias windows the
  whole (transposed, rounded) weight and the bias row, and the output window block `t` (88 time steps) of the result.
  This module states what every staging buffer holds before and after the body at each point.
-/
import proofs.«176770_j1400159338932_2_alg».proof.Proof.BEntry
import proofs.«176770_j1400159338932_2_alg».proof.Proof.BRun

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The main window's block at point `t` laid out in its staging buffer's shape [32, 264, 80]. (Its 31 blocks all lie
    inside the 8192 rows, so nothing of the filler is ever left.) -/
def blk0 (c : Dev nD) (t : Fin cfg0.N) : S32x264x80.Idx → Elt F .f32 :=
  win0_0.fill (grid0.coords t) (fun _ => Scalar.ofBits .f32 0#32) (iblk m c 0 t)

/-- No block of the main window is cut: 31 · 264 = 8184 ≤ 8192. -/
theorem clip0_none : ∀ (t : Fin cfg0.N) (a : Fin 3), (cfg0.win 0).clip (cfg0.grid.coords t) a = none :=
  (by decide +kernel : ∀ (t : Fin grid0.N) (a : Fin 3), win0_0.clip (grid0.coords t) a = none)

/-- Each window's current staging memref at point `t`, as the pipeline passes it, and its wholeness. -/
abbrev ms0_0 (t : Fin cfg0.N) : Memref sig .tc .vmem S32x264x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x8x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S88x16x1024 .f32 := win0_4.stage (cfg0.slots t 4)
abbrev hs0_4 (t : Fin cfg0.N) : (ms0_4 t).IsWhole := hstage0_4 ((cfg0.slots t 4).cast nbuf0_4)
abbrev msS : Memref sig .tc .vmem S88x32x640 .bf16 := Memref.whole cc0_scratch0
abbrev hsS : (msS).IsWhole := Memref.isWhole_whole _

/-- One staging buffer of the output window, through which its contents are stated. -/
abbrev VO : View sig .tc .vmem S88x16x1024 .f32 := (Memref.whole cc0_stg4_0 : Memref sig .tc .vmem S88x16x1024 .f32).view

/-- The pieces the body's run at point `t` leaves in the output block. -/
def piecesAt (c : Dev nD) (t : Fin cfg0.N) : List (View.Piece (Elt F) S88x16x1024 .f32) :=
  (kernelRun c (grid0.coords t) (ms0_0 t) (hs0_0 t) (ms0_1 t) (hs0_1 t) (ms0_2 t) (hs0_2 t) (ms0_3 t) (hs0_3 t) (ms0_4 t) (hs0_4 t) msS hsS
    (blk0 m c t) (iblk m c 1 t) (iblk m c 2 t) (iblk m c 3 t)).1

/-- What the output window's staging buffer holds after the body at point `t`: those pieces read back. -/
def outAt (c : Dev nD) (t : Fin cfg0.N) : Vec F S88x16x1024 .f32 :=
  VO.read (Elt F) (VO.writes (Elt F) VO.junk (piecesAt m c t))

/-- The four trips' pieces (22 time steps each) tile the 88 time steps of the block. -/
theorem cover_out (c : Dev nD) (t : Fin cfg0.N) (y : S88x16x1024.Idx) :
    ∃ pc ∈ piecesAt m c t, y ∈ pc.1.set :=
  View.cover_of_tiledL (piecesAt m c t) S22x16x1024.size (by unfold piecesAt; sl_kernel_rfl) y

/-! ## The proof data -/

/-- The proof data of the pipeline on core `c`: the arrays as the region finds them; after the body each input
    buffer at its block and the output buffer at `outAt`; the invariant the core's scratch buffer at some contents;
    nothing owed. The main and the tail windows read one array: each holds half of it. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => iblk m c 3 t
    | ⟨4, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blk0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's current staging buffer holds its block at every point, fetched there or not. -/
theorem before0_0 (c : Dev nD) (t : Fin cfg0.N) (d) : (dats m 0 c).before 0 t d = blk0 m c t := by
  refine ((dats m 0 c).before_in_eq_fetched 0 rfl (fun _ => rfl) (fun t t' h => ?_) (fun t => ?_) t d).trans ?_
  · funext a; rw [clip0_none t a, clip0_none t' a]
  · rw [after0_0]; unfold blk0 Dat.blockOf iblk; rw [A_eq]; exact win0_0.cut_fill _ _ _
  · rw [(dats m 0 c).fetched_of_clip_none 0 t (clip0_none t) d (fun _ => Scalar.ofBits .f32 0#32)]
    unfold Dat.fetched Dat.blockOf blk0 iblk; rw [A_eq]; try rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.Kernel.Hand

end
-- ==== Proof.BBody.lean ====
/-
  The body obligation: at every grid point, from the invariant (the scratch buffer at some contents) and the five
  current staging buffers at what the pipeline hands them, the kernel body runs to the invariant again and the buffers
  at what the proof data says they hold after the body.
-/
import proofs.«176770_j1400159338932_2_alg».proof.Proof.BData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

/-- The invariant is the scratch buffer, whole, at some contents. -/
theorem scratch_in (c : Dev nD) :
    (Pipeline.scopedRest (Ix := Unit) (Name := ℕ) (U := UR sig nD τ) (Lvl := ℕ) (Val := Elt F) spec0 c : sProp 𝕄)
      ⊢ iprop(∃ d, owns (c : Thread nD τ) (msS : Memref sig .tc .vmem S88x32x640 .bf16) fullShare d) := by
  rw [scopedRest0_eq]
  iintro ⟨%f, H⟩
  iexists _; unfold owns; iexists f
  isplitr; · ipureintro; rfl
  rw [hsS.set_eq_univ]; iexact H

theorem scratch_out (c : Dev nD) :
    iprop(∃ d, owns (c : Thread nD τ) (msS : Memref sig .tc .vmem S88x32x640 .bf16) fullShare d)
      ⊢ (Pipeline.scopedRest (Ix := Unit) (Name := ℕ) (U := UR sig nD τ) (Lvl := ℕ) (Val := Elt F) spec0 c : sProp 𝕄) := by
  rw [scopedRest0_eq]
  unfold owns
  iintro ⟨%d, %f, -, H⟩
  iexists f
  rw [hsS.set_eq_univ]; iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns: the main window's buffer is stated on the part its transfers move. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare ((cfg0.win 0).fill (cfg0.grid.coords t) d ((cfg0.win 0).cut (cfg0.grid.coords t) ((dats m 0 c).after 0 t))))
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.scopedRest (Ix := Unit) (Name := ℕ) (U := UR sig nD τ) (Lvl := ℕ) (Val := Elt F) spec0 c from rfl]
  unfold outAt piecesAt
  iintro ⟨HΦ, Ho, ⟨%d0, H0⟩, ⟨%d1, H1⟩, ⟨%d2, H2⟩, ⟨%d3, H3⟩, ⟨%d4, H4⟩⟩
  ihave HS := (scratch_in (F := F) c) $$ HΦ
  iapply ((kernelRun c (grid0.coords t) _ _ _ _ _ _ _ _ _ _ _ _ (blk0 m c t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS]; · iapply (scratch_out (F := F) c); iexact HS
  isplitl [Ho]; · iexact Ho
  isplitl [H0]
  · iexists (fun _ => Scalar.ofBits .f32 0#32)
    rw [show (cfg0.win 0).fill (cfg0.grid.coords t) (fun _ => Scalar.ofBits .f32 0#32) ((cfg0.win 0).cut (cfg0.grid.coords t) (blk0 m c t)) = blk0 m c t from by
      unfold blk0; rw [show (cfg0.win 0).cut (cfg0.grid.coords t) (win0_0.fill (grid0.coords t) (fun _ => Scalar.ofBits .f32 0#32) (iblk m c 0 t)) = iblk m c 0 t from win0_0.cut_fill _ _ _]]
    iexact H0
  isplitl [H1]; · iexact H1
  isplitl [H2]; · iexact H2
  isplitl [H3]; · iexact H3
  unfold owns; iexists _; isplitr
  swap; · iexact H4
  ipureintro; exact View.read_writes_of_cover _ _ _ _ _ (cover_out m c t)

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.Kernel.Hand

end
-- ==== Proof.BLaunch.lean ====
/-
  The launch: the whole program runs — the host operations, then the pipeline over its 31 points — and ends with every
  windowed array at what the write-backs leave (the inputs unchanged, the result overwritten block by block with what
  the body left) and every other buffer as the region found it. The main and the tail windows read ONE array, the input
  frames: its full share is dealt to them in two halves at the region's entry.
-/
import proofs.«176770_j1400159338932_2_alg».proof.Proof.BBody
import Idealize.ShloMosaic.Lib.Pipeline.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.Kernel Cert.Kernel.Gen

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The buffers behind the windows' arrays, whole at the region-entry contents, are the windows' arrays at their
    shares: the input frames' buffer split in two halves for the main and the tail window. -/
theorem arrays_split (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 := by
  classical
  unfold Pipeline.arrBufs Dat.arrays
  have e : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_v4) ↦{fullShare} V m c main_v4)
          ∗ (((c.tc : Thread nD τ).loc main_v5) ↦{fullShare} V m c main_v5) ∗ (((c.tc : Thread nD τ).loc main_v6) ↦{fullShare} V m c main_v6)) :=
    bigSep_eq_bigSepL_of_eq [main_arg0, main_v4, main_v5, main_v6] (by decide) (by decide) _
  rw [e, bigSep_W0]
  iintro ⟨H0, H2, H3, H4⟩
  have hs : ((((c.tc : Thread nD τ).loc main_arg0) ↦{fullShare} V m c main_arg0 : sProp 𝕄))
      ⊢ iprop((((c.tc : Thread nD τ).loc main_arg0) ↦{fullShare.left} V m c main_arg0) ∗ (((c.tc : Thread nD τ).loc main_arg0) ↦{fullShare.right} V m c main_arg0)) :=
    (pointsTo_share (PosShare.mem_left_op_right fullShare)).1
  ihave H01 := (hs) $$ H0
  icases H01 with ⟨Ha, Hb⟩
  rw [(show (cfg0.win 0).arr.IsWhole from Memref.isWhole_whole _).set_eq_univ,
    (show (cfg0.win 2).arr.IsWhole from Memref.isWhole_whole _).set_eq_univ,
    (show (cfg0.win 3).arr.IsWhole from Memref.isWhole_whole _).set_eq_univ,
    (show (cfg0.win 4).arr.IsWhole from Memref.isWhole_whole _).set_eq_univ]
  isplitl [Ha]; · iexact Ha
  isplitl [Hb]; · iexact Hb
  isplitl [H2]; · iexact H2
  isplitl [H3]; · iexact H3
  iexact H4

set_option backward.isDefEq.respectTransparency.types false in
/-- From any memory with zero counters every weakly fair execution of the program terminates, and every final state
    has every windowed array at what the library computes from the proof data and every other unscoped buffer as the
    region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c
      iintro ⟨-, H⟩; iexact H)
    (hout := fun c => by
      show Pipeline.scopedRest (Ix := Unit) (Name := ℕ) (U := UR sig nD τ) (Lvl := ℕ) (Val := Elt F) spec0 c
        ⊢ iprop(emp ∗ Pipeline.scopedRest (Ix := Unit) (Name := ℕ) (U := UR sig nD τ) (Lvl := ℕ) (Val := Elt F) spec0 c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-- The frame: the program runs and its argument arrays end unchanged — the input frames read off the main window's
    array (an input array is never written), the other three arguments among the buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.Kernel.Hand

end
-- ==== Proof.KEntry.lean ====
/-
  The host program around the kernel: before the one kernel region, the host computes the output lengths
  (`src_lengths // 3 - 2`), transposes the weight to [640, 1024] and rounds it to bf16, and reshapes the bias to
  [1, 1024]. This module names what each buffer holds when the region is entered, shows the program reduces to the
  region from there, and that none of these host operations writes an argument array.
-/
import proofs.«176770_j1400159338932_2_alg».proof.Proof.Gen.KernelIdeal.Launch
import proofs.«176770_j1400159338932_2_alg».proof.Proof.Gen.KernelIdeal.Skeleton
import proofs.«176770_j1400159338932_2_alg».proof.Proof.Gen.KernelIdeal.Points
import Idealize.ShloMosaic.Lib.Pipeline.FrameBody
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

/-! ## The program up to the region -/

/-- Core `c`'s buffers when the region is entered: after the host operations before it. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- The program is these host operations and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2] (by simp only [List.Forall]; exact ⟨hostOps0_sub, hostOps0_1_sub, hostOps0_2_sub⟩)
    (by simp only [List.Forall]; exact ⟨hostOps0_fresh, hostOps0_1_fresh, hostOps0_2_fresh⟩) main_chain

/-- No host operation before the region writes an argument array. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)))

end Cert.KernelIdeal.Hand

end
-- ==== Proof.KRun.lean ====
/-
  The kernel body, run once on any whole staging buffers. It loads the main block [32, 264, 80] and the tail block
  [32, 8, 80] of the input frames, stores the stacked windows [88, 32, 640] into its scratch buffer, and then in four
  trips of 22 time steps each loads a [22, 32, 640] slab of the scratch, the weight block and the bias row, and stores
  the gated product [22, 16, 1024] into the output block at rows 22·k … 22·k + 21. The run leaves the four input
  buffers as they were, the scratch at some contents, and the output buffer with the four trips' pieces written.
-/
import proofs.«176770_j1400159338932_2_alg».proof.Proof.Gen.KernelIdeal.Launch
import proofs.«176770_j1400159338932_2_alg».proof.Proof.Gen.KernelIdeal.Skeleton
import proofs.«176770_j1400159338932_2_alg».proof.Proof.Gen.KernelIdeal.Loops
import proofs.«176770_j1400159338932_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

set_option maxHeartbeats 4000000 in
/-- The body's run: the pieces the output block ends with (found by the run itself), with the proof that from the
    input buffers at their contents, the output and the scratch at anything, the body reaches its continuation
    holding the inputs unchanged, the output with those pieces written, and the scratch at some contents. -/
noncomputable def kernelRun (c : Dev nD) (i : grid0.Coords) (arg1 : Memref sig .tc .vmem S32x264x80 .f32) (harg1 : arg1.IsWhole) (arg2 : Memref sig .tc .vmem S32x8x80 .f32) (harg2 : arg2.IsWhole) (arg3 : Memref sig .tc .vmem S640x1024 .bf16) (harg3 : arg3.IsWhole) (arg4 : Memref sig .tc .vmem S1x1024 .f32) (harg4 : arg4.IsWhole) (arg5 : Memref sig .tc .vmem S88x16x1024 .f32) (harg5 : arg5.IsWhole) (arg6 : Memref sig .tc .vmem S88x32x640 .bf16) (harg6 : arg6.IsWhole)
    (x0 : Vec F S32x264x80 .f32) (x1 : Vec F S32x8x80 .f32) (x2 : Vec F S640x1024 .bf16) (x3 : Vec F S1x1024 .f32) :
    { L5 : List (View.Piece (Elt F) S88x16x1024 .f32) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L5)
                ∗ (∃ d, owns (c : Thread nD τ) arg6 fullShare d)) -∗ K ⟨⟩))
          ⊢ wp frame (wpE (defs₀ (F := F)) Variants.none c none) E (cc0__fused_kernel i arg1 harg1 arg2 harg2 arg3 harg3 arg4 harg4 arg5 harg5 arg6 harg6) K } := by
  refine ⟨?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexists _; isplitr
    swap; · iexact H5
    ipureintro; rfl

end Cert.KernelIdeal.Hand

end
-- ==== Proof.KData.lean ====
/-
  The pipeline around the kernel body: 31 grid points; at point `t` the main window holds rows 264·t … 264·t + 263 of
  the input frames, the tail window rows 264·(t+1) … 264·(t+1) + 7 of the same array, the weight and bias windows the
  whole (transposed, rounded) weight and the bias row, and the output window block `t` (88 time steps) of the result.
  This module states what every staging buffer holds before and after the body at each point.
-/
import proofs.«176770_j1400159338932_2_alg».proof.Proof.KEntry
import proofs.«176770_j1400159338932_2_alg».proof.Proof.KRun

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The main window's block at point `t` laid out in its staging buffer's shape [32, 264, 80]. (Its 31 blocks all lie
    inside the 8192 rows, so nothing of the filler is ever left.) -/
def blk0 (c : Dev nD) (t : Fin cfg0.N) : S32x264x80.Idx → Elt F .f32 :=
  win0_0.fill (grid0.coords t) (fun _ => Scalar.ofBits .f32 0#32) (iblk m c 0 t)

/-- No block of the main window is cut: 31 · 264 = 8184 ≤ 8192. -/
theorem clip0_none : ∀ (t : Fin cfg0.N) (a : Fin 3), (cfg0.win 0).clip (cfg0.grid.coords t) a = none :=
  (by decide +kernel : ∀ (t : Fin grid0.N) (a : Fin 3), win0_0.clip (grid0.coords t) a = none)

/-- Each window's current staging memref at point `t`, as the pipeline passes it, and its wholeness. -/
abbrev ms0_0 (t : Fin cfg0.N) : Memref sig .tc .vmem S32x264x80 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x8x80 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S640x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S88x16x1024 .f32 := win0_4.stage (cfg0.slots t 4)
abbrev hs0_4 (t : Fin cfg0.N) : (ms0_4 t).IsWhole := hstage0_4 ((cfg0.slots t 4).cast nbuf0_4)
abbrev msS : Memref sig .tc .vmem S88x32x640 .bf16 := Memref.whole cc0_scratch0
abbrev hsS : (msS).IsWhole := Memref.isWhole_whole _

/-- One staging buffer of the output window, through which its contents are stated. -/
abbrev VO : View sig .tc .vmem S88x16x1024 .f32 := (Memref.whole cc0_stg4_0 : Memref sig .tc .vmem S88x16x1024 .f32).view

/-- The pieces the body's run at point `t` leaves in the output block. -/
def piecesAt (c : Dev nD) (t : Fin cfg0.N) : List (View.Piece (Elt F) S88x16x1024 .f32) :=
  (kernelRun c (grid0.coords t) (ms0_0 t) (hs0_0 t) (ms0_1 t) (hs0_1 t) (ms0_2 t) (hs0_2 t) (ms0_3 t) (hs0_3 t) (ms0_4 t) (hs0_4 t) msS hsS
    (blk0 m c t) (iblk m c 1 t) (iblk m c 2 t) (iblk m c 3 t)).1

/-- What the output window's staging buffer holds after the body at point `t`: those pieces read back. -/
def outAt (c : Dev nD) (t : Fin cfg0.N) : Vec F S88x16x1024 .f32 :=
  VO.read (Elt F) (VO.writes (Elt F) VO.junk (piecesAt m c t))

/-- The four trips' pieces (22 time steps each) tile the 88 time steps of the block. -/
theorem cover_out (c : Dev nD) (t : Fin cfg0.N) (y : S88x16x1024.Idx) :
    ∃ pc ∈ piecesAt m c t, y ∈ pc.1.set :=
  View.cover_of_tiledL (piecesAt m c t) S22x16x1024.size (by unfold piecesAt; sl_kernel_rfl) y

/-! ## The proof data -/

/-- The proof data of the pipeline on core `c`: the arrays as the region finds them; after the body each input
    buffer at its block and the output buffer at `outAt`; the invariant the core's scratch buffer at some contents;
    nothing owed. The main and the tail windows read one array: each holds half of it. -/
def dats (_ : Fin 1) (c : Dev nD) : Dat τ (Elt F) Unit ℕ (UR sig nD τ) ℕ cfg0 c where
  A w := V m c (Pipeline.arrRef spec0 w)
  after w t := match w with
    | ⟨0, _⟩ => blk0 m c t
    | ⟨1, _⟩ => iblk m c 1 t
    | ⟨2, _⟩ => iblk m c 2 t
    | ⟨3, _⟩ => iblk m c 3 t
    | ⟨4, _⟩ => outAt m c t
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = blk0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t := by dsimp only [dats]

/-- Each input's current staging buffer holds its block at every point, fetched there or not. -/
theorem before0_0 (c : Dev nD) (t : Fin cfg0.N) (d) : (dats m 0 c).before 0 t d = blk0 m c t := by
  refine ((dats m 0 c).before_in_eq_fetched 0 rfl (fun _ => rfl) (fun t t' h => ?_) (fun t => ?_) t d).trans ?_
  · funext a; rw [clip0_none t a, clip0_none t' a]
  · rw [after0_0]; unfold blk0 Dat.blockOf iblk; rw [A_eq]; exact win0_0.cut_fill _ _ _
  · rw [(dats m 0 c).fetched_of_clip_none 0 t (clip0_none t) d (fun _ => Scalar.ofBits .f32 0#32)]
    unfold Dat.fetched Dat.blockOf blk0 iblk; rw [A_eq]; try rfl
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

end Cert.KernelIdeal.Hand

end
-- ==== Proof.KBody.lean ====
/-
  The body obligation: at every grid point, from the invariant (the scratch buffer at some contents) and the five
  current staging buffers at what the pipeline hands them, the kernel body runs to the invariant again and the buffers
  at what the proof data says they hold after the body.
-/
import proofs.«176770_j1400159338932_2_alg».proof.Proof.KData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

/-- The invariant is the scratch buffer, whole, at some contents. -/
theorem scratch_in (c : Dev nD) :
    (Pipeline.scopedRest (Ix := Unit) (Name := ℕ) (U := UR sig nD τ) (Lvl := ℕ) (Val := Elt F) spec0 c : sProp 𝕄)
      ⊢ iprop(∃ d, owns (c : Thread nD τ) (msS : Memref sig .tc .vmem S88x32x640 .bf16) fullShare d) := by
  rw [scopedRest0_eq]
  iintro ⟨%f, H⟩
  iexists _; unfold owns; iexists f
  isplitr; · ipureintro; rfl
  rw [hsS.set_eq_univ]; iexact H

theorem scratch_out (c : Dev nD) :
    iprop(∃ d, owns (c : Thread nD τ) (msS : Memref sig .tc .vmem S88x32x640 .bf16) fullShare d)
      ⊢ (Pipeline.scopedRest (Ix := Unit) (Name := ℕ) (U := UR sig nD τ) (Lvl := ℕ) (Val := Elt F) spec0 c : sProp 𝕄) := by
  rw [scopedRest0_eq]
  unfold owns
  iintro ⟨%d, %f, -, H⟩
  iexists f
  rw [hsS.set_eq_univ]; iexact H

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns: the main window's buffer is stated on the part its transfers move. -/
def bodyPost (c : Dev nD) (t : Fin cfg0.N) : sProp 𝕄 :=
  iprop((dats m 0 c).Φ t.succ ∗ (dats m 0 c).owesAt () t.succ
    ∗ (∃ d, owns (c : Thread nD τ) (ms0_0 t) fullShare ((cfg0.win 0).fill (cfg0.grid.coords t) d ((cfg0.win 0).cut (cfg0.grid.coords t) ((dats m 0 c).after 0 t))))
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.scopedRest (Ix := Unit) (Name := ℕ) (U := UR sig nD τ) (Lvl := ℕ) (Val := Elt F) spec0 c from rfl]
  unfold outAt piecesAt
  iintro ⟨HΦ, Ho, ⟨%d0, H0⟩, ⟨%d1, H1⟩, ⟨%d2, H2⟩, ⟨%d3, H3⟩, ⟨%d4, H4⟩⟩
  ihave HS := (scratch_in (F := F) c) $$ HΦ
  iapply ((kernelRun c (grid0.coords t) _ _ _ _ _ _ _ _ _ _ _ _ (blk0 m c t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS]; · iapply (scratch_out (F := F) c); iexact HS
  isplitl [Ho]; · iexact Ho
  isplitl [H0]
  · iexists (fun _ => Scalar.ofBits .f32 0#32)
    rw [show (cfg0.win 0).fill (cfg0.grid.coords t) (fun _ => Scalar.ofBits .f32 0#32) ((cfg0.win 0).cut (cfg0.grid.coords t) (blk0 m c t)) = blk0 m c t from by
      unfold blk0; rw [show (cfg0.win 0).cut (cfg0.grid.coords t) (win0_0.fill (grid0.coords t) (fun _ => Scalar.ofBits .f32 0#32) (iblk m c 0 t)) = iblk m c 0 t from win0_0.cut_fill _ _ _]]
    iexact H0
  isplitl [H1]; · iexact H1
  isplitl [H2]; · iexact H2
  isplitl [H3]; · iexact H3
  unfold owns; iexists _; isplitr
  swap; · iexact H4
  ipureintro; exact View.read_writes_of_cover _ _ _ _ _ (cover_out m c t)

/-- The library's body obligation, at every point. -/
theorem body_obligation (c : Dev nD) : BodyObligationLoose (dats (F := F) m 0 c) (defs₀ (F := F)) Variants.none () Set.univ := fun t => by
  rw [bigSep_W0, bigSep_W0]
  exact sound_body m c t

end Cert.KernelIdeal.Hand

end
-- ==== Proof.KLaunch.lean ====
/-
  The launch: the whole program runs — the host operations, then the pipeline over its 31 points — and ends with every
  windowed array at what the write-backs leave (the inputs unchanged, the result overwritten block by block with what
  the body left) and every other buffer as the region found it. The main and the tail windows read ONE array, the input
  frames: its full share is dealt to them in two halves at the region's entry.
-/
import proofs.«176770_j1400159338932_2_alg».proof.Proof.KBody
import Idealize.ShloMosaic.Lib.Pipeline.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Cert.KernelIdeal Cert.KernelIdeal.Gen

/-- The proof's resource algebra: one copy of the rounds library's, the pipeline's. -/
abbrev EP : Emb (UR sig nD τ) (MT nD τ sig Unit (Elt F) ℕ (UR sig nD τ) ℕ) := emb₁

/-- The launch element: every staging cell's owner at round 0 and a duty token for every transfer the pipeline issues. -/
def u₀ : UR sig nD τ := initOf (Pipeline.cells cfgs cellOf_inj) (Pipeline.launchToks cfgs cellOf_inj)

/-- The buffers behind the windows' arrays, whole at the region-entry contents, are the windows' arrays at their
    shares: the input frames' buffer split in two halves for the main and the tail window. -/
theorem arrays_split (c : Dev nD) :
    (Pipeline.arrBufs (Ix := Unit) (Name := ℕ) (U := UR sig nD τ) (Lvl := ℕ) spec0 c (V m c) : sProp 𝕄)
      ⊢ (dats m 0 c).arrays fun w => (dats m 0 c).arrAt w 0 := by
  classical
  unfold Pipeline.arrBufs Dat.arrays
  have e : (bigSep (Finset.univ.image (Pipeline.arrRef spec0)) fun b => (((c.tc : Thread nD τ).loc b) ↦{fullShare} V m c b : sProp 𝕄))
      = iprop((((c.tc : Thread nD τ).loc main_arg0) ↦{fullShare} V m c main_arg0) ∗ (((c.tc : Thread nD τ).loc main_v4) ↦{fullShare} V m c main_v4)
          ∗ (((c.tc : Thread nD τ).loc main_v5) ↦{fullShare} V m c main_v5) ∗ (((c.tc : Thread nD τ).loc main_v6) ↦{fullShare} V m c main_v6)) :=
    bigSep_eq_bigSepL_of_eq [main_arg0, main_v4, main_v5, main_v6] (by decide) (by decide) _
  rw [e, bigSep_W0]
  iintro ⟨H0, H2, H3, H4⟩
  have hs : ((((c.tc : Thread nD τ).loc main_arg0) ↦{fullShare} V m c main_arg0 : sProp 𝕄))
      ⊢ iprop((((c.tc : Thread nD τ).loc main_arg0) ↦{fullShare.left} V m c main_arg0) ∗ (((c.tc : Thread nD τ).loc main_arg0) ↦{fullShare.right} V m c main_arg0)) :=
    (pointsTo_share (PosShare.mem_left_op_right fullShare)).1
  ihave H01 := (hs) $$ H0
  icases H01 with ⟨Ha, Hb⟩
  rw [(show (cfg0.win 0).arr.IsWhole from Memref.isWhole_whole _).set_eq_univ,
    (show (cfg0.win 2).arr.IsWhole from Memref.isWhole_whole _).set_eq_univ,
    (show (cfg0.win 3).arr.IsWhole from Memref.isWhole_whole _).set_eq_univ,
    (show (cfg0.win 4).arr.IsWhole from Memref.isWhole_whole _).set_eq_univ]
  isplitl [Ha]; · iexact Ha
  isplitl [Hb]; · iexact Hb
  isplitl [H2]; · iexact H2
  isplitl [H3]; · iexact H3
  iexact H4

set_option backward.isDefEq.respectTransparency.types false in
/-- From any memory with zero counters every weakly fair execution of the program terminates, and every final state
    has every windowed array at what the library computes from the proof data and every other unscoped buffer as the
    region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := V m) (hmain := hmain m Variants.none)
    (hsplit := arrays_split m)
    (X := fun _ => iprop(emp)) (Y := fun _ => iprop(emp))
    (Z := fun c => Pipeline.unscopedRest (Ix := Unit) (Name := ℕ) (U := UR sig nD τ) (Lvl := ℕ) spec0 c (V m c))
    (hX := fun c => by iintro H; isplitr; · iempintro
                       iexact H)
    (hin := fun c => by
      show iprop(emp ∗ Pipeline.scopedRest (Ix := Unit) (Name := ℕ) (U := UR sig nD τ) (Lvl := ℕ) (Val := Elt F) spec0 c)
        ⊢ Pipeline.scopedRest (Ix := Unit) (Name := ℕ) (U := UR sig nD τ) (Lvl := ℕ) (Val := Elt F) spec0 c
      iintro ⟨-, H⟩; iexact H)
    (hout := fun c => by
      show Pipeline.scopedRest (Ix := Unit) (Name := ℕ) (U := UR sig nD τ) (Lvl := ℕ) (Val := Elt F) spec0 c
        ⊢ iprop(emp ∗ Pipeline.scopedRest (Ix := Unit) (Name := ℕ) (U := UR sig nD τ) (Lvl := ℕ) (Val := Elt F) spec0 c)
      iintro H; isplitr; · iempintro
      iexact H)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- The frame: the program runs and its argument arrays end unchanged — the input frames read off the main window's
    array (an input array is never written), the other three arguments among the buffers the region bypasses. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Hand

end
-- ==== Proof.Spec.lean ====
/-
  The function both programs compute, stated once over the argument arrays at the ideal instance
  (floats are extended reals).

  Frame stacking: output time step `t` (0 ≤ t < 2728) of batch row `r` sees the 640 features
  `x[r, 3t + k / 80, k % 80]`, k < 640: eight consecutive input frames of 80 features each,
  the window advancing by three frames per step. The linear layer is
  `lin t r o = (∑ k < 640, x[r, 3t + k/80, k%80] · W[o, k]) + b[o]`, and the gated linear unit pairs
  batch row `h` (h < 16) with batch row `h + 16`:
  `out[t, h, o] = lin t h o · σ (lin t (h+16) o)`, σ the logistic function `1 / (1 + e^(-y))`.
-/
import Idealize.ShloMosaic.PureOps.Ideal
import Idealize.ShloMosaic.Lib.ValueIdx

noncomputable section

open scoped BigOperators

namespace Cert.Spec

open Idealize.ShloMosaic Idealize.ShloMosaic.ValueIdx

/-- The input frames, f32[32, 8192, 80]. -/
abbrev SX : Shape := ⟨3, ![32, 8192, 80]⟩
/-- The weight, f32[1024, 640]. -/
abbrev SW : Shape := ⟨2, ![1024, 640]⟩
/-- The bias, f32[1024]. -/
abbrev SB : Shape := ⟨1, ![1024]⟩
/-- The result, f32[2728, 16, 1024]. -/
abbrev SO : Shape := ⟨3, ![2728, 16, 1024]⟩

/-- The input frame feature `k` of the stacked window at step `t` is read from: `3t + k / 80`. -/
def rowIx (t : Fin 2728) (k : Fin 640) : Fin 8192 := ⟨3 * t.val + k.val / 80, by omega⟩
/-- and the feature inside that frame: `k % 80`. -/
def colIx (k : Fin 640) : Fin 80 := ⟨k.val % 80, Nat.mod_lt _ (by decide)⟩

theorem rowIx_val (t : Fin 2728) (k : Fin 640) : (rowIx t k).val = 3 * t.val + k.val / 80 := rfl
theorem colIx_val (k : Fin 640) : (colIx k).val = k.val % 80 := rfl

/-- The linear layer at step `t`, batch row `r`, output feature `o`. -/
def lin (X : SX.Idx → EReal) (W : SW.Idx → EReal) (b : SB.Idx → EReal) (t : Fin 2728) (r : Fin 32) (o : Fin 1024) : EReal :=
  (∑ k : Fin 640, X (ix3 r (rowIx t k) (colIx k)) * W (ix2 o k)) + b (ix1 o)

/-- The lower half of the batch rows, and the upper half that gates it. -/
def lo (h : Fin 16) : Fin 32 := ⟨h.val, by omega⟩
def hi (h : Fin 16) : Fin 32 := ⟨h.val + 16, by omega⟩

/-- The result at explicit coordinates. -/
def Gat (X : SX.Idx → EReal) (W : SW.Idx → EReal) (b : SB.Idx → EReal) (t : Fin 2728) (h : Fin 16) (o : Fin 1024) : EReal :=
  lin X W b t (lo h) o * Ideal.logistic (lin X W b t (hi h) o)

/-- The result array as one function of the argument arrays. -/
def G (X : SX.Idx → EReal) (W : SW.Idx → EReal) (b : SB.Idx → EReal) : SO.Idx → EReal :=
  fun j => Gat X W b (j 0) (j 1) (j 2)

theorem G_ix3 (X : SX.Idx → EReal) (W : SW.Idx → EReal) (b : SB.Idx → EReal) (t : Fin 2728) (h : Fin 16) (o : Fin 1024) :
    G X W b (ix3 t h o) = Gat X W b t h o := rfl

/-! ## The second result: the output lengths

`src_lengths // 3 - 2`, elementwise over i32[32], the floor division spelt as jax lowers it: the truncated
quotient, less one where the remainder is non-zero and the signs of dividend and divisor differ. Both programs
apply exactly these operations to the lengths argument. -/

/-- The lengths, i32[32]. -/
abbrev SL : Shape := ⟨1, ![32]⟩
/-- A scalar. -/
abbrev S0 : Shape := ⟨0, ![]⟩

theorem bcast0 : S0.BroadcastsInDim SL (![] : Fin 0 → Fin SL.rank) := by decide

/-- `a // 3 - 2` over the 32 lengths. -/
def outLen (a : IVec SL 32) : IVec SL 32 :=
  let c3 : IVec S0 32 := constantI S0 32 3#32
  let b3 : IVec SL 32 := broadcastInDim SL ![] bcast0 c3
  let q : IVec SL 32 := Host.divsi a b3
  let sgnNe : IVec SL 1 := cmpi .ne (signi a) (broadcastInDim SL ![] bcast0 (signi c3))
  let remNe : IVec SL 1 := cmpi .ne (Host.remsi a b3) (broadcastInDim SL ![] bcast0 (constantI S0 32 0#32))
  let fl : IVec SL 32 := select (andi sgnNe remNe) (subi q (broadcastInDim SL ![] bcast0 (constantI S0 32 1#32))) q
  subi fl (broadcastInDim SL ![] bcast0 (constantI S0 32 2#32))

end Cert.Spec

end
-- ==== Proof.RefRun.lean ====
/-
  The reference program's @main as the list of its forty-four host operations (the call of @floor_divide and its
  nested call of @_where unfolded at their call sites over the call's buffers), and its run read back: every weakly
  fair execution terminates with each result buffer at the operations' composed pure term of the argument arrays,
  the arguments unchanged.
-/
import proofs.«176770_j1400159338932_2_alg».proof.Proof.Gen.ReferenceIdeal
import proofs.«176770_j1400159338932_2_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The results as functions of the argument arrays -/

/-- The first 8190 frames of each batch row, three consecutive frames to a row: [32, 2730, 240]. -/
def tri (X : (⟨S32x8192x80, .f32⟩ : BufTy).Contents (Elt F)) : (⟨S32x2730x240, .f32⟩ : BufTy).Contents (Elt F) :=
  shapeCast S32x2730x240 (extractStridedSlice S32x8190x80 ![0, 0, 0] X slices_S32x8192x80_S32x8190x80_0_0_0) shapeCasts_S32x8190x80_S32x2730x240

/-- The stacked window: rows `t`, `t+1`, `t+2` of `tri` side by side (720 wide), the first 640 columns kept, the step axis
    moved first: [2728, 32, 640]. -/
def win (X : (⟨S32x8192x80, .f32⟩ : BufTy).Contents (Elt F)) : (⟨S2728x32x640, .f32⟩ : BufTy).Contents (Elt F) :=
  transpose S2728x32x640 [1, 0, 2]
    (extractStridedSlice S32x2728x640 ![0, 0, 0]
      (concatenate S32x2728x720 2
        [⟨S32x2728x240, extractStridedSlice S32x2728x240 ![0, 0, 0] (tri X) slices_S32x2730x240_S32x2728x240_0_0_0⟩,
         ⟨S32x2728x240, extractStridedSlice S32x2728x240 ![0, 1, 0] (tri X) slices_S32x2730x240_S32x2728x240_0_1_0⟩,
         ⟨S32x2728x240, extractStridedSlice S32x2728x240 ![0, 2, 0] (tri X) slices_S32x2730x240_S32x2728x240_0_2_0⟩]
        concatenates_S32x2728x240_S32x2728x240_S32x2728x240_S32x2728x720_d2)
      slices_S32x2728x720_S32x2728x640_0_0_0)
    transposes_S32x2728x640_S2728x32x640_1_0_2

/-- The linear layer: the window contracted with the weight's second axis, plus the bias broadcast: [2728, 32, 1024]. -/
def pre (X : (⟨S32x8192x80, .f32⟩ : BufTy).Contents (Elt F)) (W : (⟨S1024x640, .f32⟩ : BufTy).Contents (Elt F)) (b : (⟨S1024, .f32⟩ : BufTy).Contents (Elt F)) : (⟨S2728x32x1024, .f32⟩ : BufTy).Contents (Elt F) :=
  addf (Host.dotGeneral dot_S2728x32x640_S1024x640_S2728x32x1024_2_1_01_0_n_n none (win X) W)
    (broadcastInDim S2728x32x1024 ![0, 1, 2] bcast_S1x1x1024_S2728x32x1024_0_1_2 (broadcastInDim S1x1x1024 ![2] bcast_S1024_S1x1x1024_2 b))

/-- The float result: the lower sixteen batch rows of the linear layer times `1 / (1 + exp (-·))` of the upper sixteen. -/
def outF (X : (⟨S32x8192x80, .f32⟩ : BufTy).Contents (Elt F)) (W : (⟨S1024x640, .f32⟩ : BufTy).Contents (Elt F)) (b : (⟨S1024, .f32⟩ : BufTy).Contents (Elt F)) : (⟨S2728x16x1024, .f32⟩ : BufTy).Contents (Elt F) :=
  mulf (extractStridedSlice S2728x16x1024 ![0, 0, 0] (pre X W b) slices_S2728x32x1024_S2728x16x1024_0_0_0)
    (Host.divf (broadcastInDim S2728x16x1024 ![] bcast_S_S2728x16x1024 (constant S_ .f32 0x3F800000#32))
      (addf (broadcastInDim S2728x16x1024 ![] bcast_S_S2728x16x1024 (constant S_ .f32 0x3F800000#32))
        (Host.exp (Host.negf (extractStridedSlice S2728x16x1024 ![0, 16, 0] (pre X W b) slices_S2728x32x1024_S2728x16x1024_0_16_0)))))

/-- The integer result: the lengths floor-divided by three, less two. -/
def outI (a : (⟨S32, .i32⟩ : BufTy).Contents (Elt F)) : (⟨S32, .i32⟩ : BufTy).Contents (Elt F) :=
  let c3 : (⟨S_, .i32⟩ : BufTy).Contents (Elt F) := constantI S_ 32 3#32
  let b3 : (⟨S32, .i32⟩ : BufTy).Contents (Elt F) := broadcastInDim S32 ![] bcast_S_S32 c3
  let q : (⟨S32, .i32⟩ : BufTy).Contents (Elt F) := Host.divsi a b3
  let sgnNe : (⟨S32, .i1⟩ : BufTy).Contents (Elt F) := cmpi .ne (signi a) (broadcastInDim S32 ![] bcast_S_S32 (signi c3))
  let remNe : (⟨S32, .i1⟩ : BufTy).Contents (Elt F) := cmpi .ne (Host.remsi a b3) (broadcastInDim S32 ![] bcast_S_S32 (constantI S_ 32 0#32))
  let fl : (⟨S32, .i32⟩ : BufTy).Contents (Elt F) := select (andi sgnNe remNe) (subi q (broadcastInDim S32 ![] bcast_S_S32 (constantI S_ 32 1#32))) q
  subi fl (broadcastInDim S32 ![] bcast_S_S32 (constantI S_ 32 2#32))

/-! ## The run -/

/-- @main's 44 operations, in order: the constant 3, the seventeen of @floor_divide (its last the select of @_where), then
    @main's own twenty-six. -/
abbrev ops : List (HloOp τ sig (Elt F)) :=
  [ nullary main_c (constantI S_ 32 3#32),
    TRef.unary (.of main_c) main_call0.v0 id,
    TRef.unary main_call0.v0 main_call0.v1 (broadcastInDim S32 ![] bcast_S_S32),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S32 ![] bcast_S_S32),
    TRef.binary main_call0.v3 main_call0.v5 main_call0.v6 (cmpi .ne),
    TRef.unary main_call0.v0 main_call0.v7 (broadcastInDim S32 ![] bcast_S_S32),
    TRef.binary (.of main_arg1) main_call0.v7 main_call0.v8 Host.remsi,
    TRef.nullary main_call0.c (constantI S_ 32 0#32),
    TRef.unary main_call0.c main_call0.v9 (broadcastInDim S32 ![] bcast_S_S32),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S32 ![] bcast_S_S32),
    TRef.binary main_call0.v2 main_call0.v12 main_call0.v13 subi,
    TRef.ternary main_call0.v11 main_call0.v13 main_call0.v2 main_call0.call0.v0 select,
    nullary main_c_0 (constantI S_ 32 2#32),
    unary main_c_0 main_v1 (broadcastInDim S32 ![] bcast_S_S32 : (⟨S_, .i32⟩ : BufTy).Contents (Elt F) → (⟨S32, .i32⟩ : BufTy).Contents (Elt F)),
    binary main_v0 main_v1 main_v2 (subi : (⟨S32, .i32⟩ : BufTy).Contents (Elt F) → (⟨S32, .i32⟩ : BufTy).Contents (Elt F) → (⟨S32, .i32⟩ : BufTy).Contents (Elt F)),
    unary main_arg0 main_v3 ((extractStridedSlice S32x8190x80 ![0, 0, 0] · slices_S32x8192x80_S32x8190x80_0_0_0) : (⟨S32x8192x80, .f32⟩ : BufTy).Contents (Elt F) → (⟨S32x8190x80, .f32⟩ : BufTy).Contents (Elt F)),
    reshape main_v3 main_v4 rfl shapeCasts_S32x8190x80_S32x2730x240,
    unary main_v4 main_v5 ((extractStridedSlice S32x2728x240 ![0, 0, 0] · slices_S32x2730x240_S32x2728x240_0_0_0) : (⟨S32x2730x240, .f32⟩ : BufTy).Contents (Elt F) → (⟨S32x2728x240, .f32⟩ : BufTy).Contents (Elt F)),
    unary main_v4 main_v6 ((extractStridedSlice S32x2728x240 ![0, 1, 0] · slices_S32x2730x240_S32x2728x240_0_1_0) : (⟨S32x2730x240, .f32⟩ : BufTy).Contents (Elt F) → (⟨S32x2728x240, .f32⟩ : BufTy).Contents (Elt F)),
    unary main_v4 main_v7 ((extractStridedSlice S32x2728x240 ![0, 2, 0] · slices_S32x2730x240_S32x2728x240_0_2_0) : (⟨S32x2730x240, .f32⟩ : BufTy).Contents (Elt F) → (⟨S32x2728x240, .f32⟩ : BufTy).Contents (Elt F)),
    nary ![main_v5, main_v6, main_v7] main_v8 (fun u => concatenate S32x2728x720 2 [⟨S32x2728x240, u 0⟩, ⟨S32x2728x240, u 1⟩, ⟨S32x2728x240, u 2⟩] concatenates_S32x2728x240_S32x2728x240_S32x2728x240_S32x2728x720_d2),
    unary main_v8 main_v9 ((extractStridedSlice S32x2728x640 ![0, 0, 0] · slices_S32x2728x720_S32x2728x640_0_0_0) : (⟨S32x2728x720, .f32⟩ : BufTy).Contents (Elt F) → (⟨S32x2728x640, .f32⟩ : BufTy).Contents (Elt F)),
    unary main_v9 main_v10 ((transpose S2728x32x640 [1, 0, 2] · transposes_S32x2728x640_S2728x32x640_1_0_2) : (⟨S32x2728x640, .f32⟩ : BufTy).Contents (Elt F) → (⟨S2728x32x640, .f32⟩ : BufTy).Contents (Elt F)),
    binary main_v10 main_arg2 main_v11 ((fun l r => Host.dotGeneral dot_S2728x32x640_S1024x640_S2728x32x1024_2_1_01_0_n_n none l r) : (⟨S2728x32x640, .f32⟩ : BufTy).Contents (Elt F) → (⟨S1024x640, .f32⟩ : BufTy).Contents (Elt F) → (⟨S2728x32x1024, .f32⟩ : BufTy).Contents (Elt F)),
    unary main_arg3 main_v12 (broadcastInDim S1x1x1024 ![2] bcast_S1024_S1x1x1024_2 : (⟨S1024, .f32⟩ : BufTy).Contents (Elt F) → (⟨S1x1x1024, .f32⟩ : BufTy).Contents (Elt F)),
    unary main_v12 main_v13 (broadcastInDim S2728x32x1024 ![0, 1, 2] bcast_S1x1x1024_S2728x32x1024_0_1_2 : (⟨S1x1x1024, .f32⟩ : BufTy).Contents (Elt F) → (⟨S2728x32x1024, .f32⟩ : BufTy).Contents (Elt F)),
    binary main_v11 main_v13 main_v14 (addf : (⟨S2728x32x1024, .f32⟩ : BufTy).Contents (Elt F) → (⟨S2728x32x1024, .f32⟩ : BufTy).Contents (Elt F) → (⟨S2728x32x1024, .f32⟩ : BufTy).Contents (Elt F)),
    unary main_v14 main_v15 ((extractStridedSlice S2728x16x1024 ![0, 0, 0] · slices_S2728x32x1024_S2728x16x1024_0_0_0) : (⟨S2728x32x1024, .f32⟩ : BufTy).Contents (Elt F) → (⟨S2728x16x1024, .f32⟩ : BufTy).Contents (Elt F)),
    unary main_v14 main_v16 ((extractStridedSlice S2728x16x1024 ![0, 16, 0] · slices_S2728x32x1024_S2728x16x1024_0_16_0) : (⟨S2728x32x1024, .f32⟩ : BufTy).Contents (Elt F) → (⟨S2728x16x1024, .f32⟩ : BufTy).Contents (Elt F)),
    unary main_v16 main_v17 (Host.negf : (⟨S2728x16x1024, .f32⟩ : BufTy).Contents (Elt F) → (⟨S2728x16x1024, .f32⟩ : BufTy).Contents (Elt F)),
    unary main_v17 main_v18 (Host.exp : (⟨S2728x16x1024, .f32⟩ : BufTy).Contents (Elt F) → (⟨S2728x16x1024, .f32⟩ : BufTy).Contents (Elt F)),
    nullary main_cst (constant S_ .f32 0x3F800000#32),
    unary main_cst main_v19 (broadcastInDim S2728x16x1024 ![] bcast_S_S2728x16x1024 : (⟨S_, .f32⟩ : BufTy).Contents (Elt F) → (⟨S2728x16x1024, .f32⟩ : BufTy).Contents (Elt F)),
    binary main_v19 main_v18 main_v20 (addf : (⟨S2728x16x1024, .f32⟩ : BufTy).Contents (Elt F) → (⟨S2728x16x1024, .f32⟩ : BufTy).Contents (Elt F) → (⟨S2728x16x1024, .f32⟩ : BufTy).Contents (Elt F)),
    nullary main_cst_1 (constant S_ .f32 0x3F800000#32),
    unary main_cst_1 main_v21 (broadcastInDim S2728x16x1024 ![] bcast_S_S2728x16x1024 : (⟨S_, .f32⟩ : BufTy).Contents (Elt F) → (⟨S2728x16x1024, .f32⟩ : BufTy).Contents (Elt F)),
    binary main_v21 main_v20 main_v22 (Host.divf : (⟨S2728x16x1024, .f32⟩ : BufTy).Contents (Elt F) → (⟨S2728x16x1024, .f32⟩ : BufTy).Contents (Elt F) → (⟨S2728x16x1024, .f32⟩ : BufTy).Contents (Elt F)),
    binary main_v15 main_v22 main_v23 (mulf : (⟨S2728x16x1024, .f32⟩ : BufTy).Contents (Elt F) → (⟨S2728x16x1024, .f32⟩ : BufTy).Contents (Elt F) → (⟨S2728x16x1024, .f32⟩ : BufTy).Contents (Elt F)) ]

set_option maxRecDepth 2048 in
/-- @main is that straight line: the functions' definitions unfolded at their calls, both sides are one chain of
    operation steps once sequencing is reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., unary_bufs_sub .., reshape_bufs_sub .., unary_bufs_sub .., unary_bufs_sub .., unary_bufs_sub .., nary_bufs_sub .., unary_bufs_sub .., unary_bufs_sub .., binary_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub ..⟩

/-- Every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result buffers -/

/-- A three-operand operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary3_result' {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The fold of the operations read at a reference, as one rewriting pass: each operation's result at its own buffer is its
    function's value, at any other buffer what was there. -/
macro "fold_results" : tactic =>
  `(tactic| (simp (disch := decide) only [after_cons, after_nil,
      nullary_result', unary_result', binary_result', ternary_result', reshape_result', nary3_result',
      nullary_result_ne', unary_result_ne', binary_result_ne', ternary_result_ne', reshape_result_ne', nary_result_ne']))

set_option maxRecDepth 4096 in
theorem res_v23 (V : Valuation τ sig (Elt F)) :
    after ops V (main_v23 : DevRef τ sig)
      = outF (V (main_arg0 : DevRef τ sig)) (V (main_arg2 : DevRef τ sig)) (V (main_arg3 : DevRef τ sig)) := by
  fold_results
  rfl

set_option maxRecDepth 4096 in
theorem res_v2 (V : Valuation τ sig (Elt F)) :
    after ops V (main_v2 : DevRef τ sig) = outI (V (main_arg1 : DevRef τ sig)) := by
  fold_results
  rfl

set_option maxRecDepth 4096 in
theorem res_arg0 (V : Valuation τ sig (Elt F)) : after ops V (main_arg0 : DevRef τ sig) = V (main_arg0 : DevRef τ sig) := by
  fold_results
set_option maxRecDepth 4096 in
theorem res_arg1 (V : Valuation τ sig (Elt F)) : after ops V (main_arg1 : DevRef τ sig) = V (main_arg1 : DevRef τ sig) := by
  fold_results
set_option maxRecDepth 4096 in
theorem res_arg2 (V : Valuation τ sig (Elt F)) : after ops V (main_arg2 : DevRef τ sig) = V (main_arg2 : DevRef τ sig) := by
  fold_results
set_option maxRecDepth 4096 in
theorem res_arg3 (V : Valuation τ sig (Elt F)) : after ops V (main_arg3 : DevRef τ sig) = V (main_arg3 : DevRef τ sig) := by
  fold_results

/-- On every device, from any memory with zero counters: every weakly fair execution of @main terminates with the float
    result at `outF` of the frames, the weight and the bias, the integer result at `outI` of the lengths, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v23) = outF (m ((c.tc : Thread nD τ).loc main_arg0)) (m ((c.tc : Thread nD τ).loc main_arg2)) (m ((c.tc : Thread nD τ).loc main_arg3))
      ∧ r.2.mem ((c.tc : Thread nD τ).loc main_v2) = outI (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v23).trans (res_v23 _), (h c main_v2).trans (res_v2 _),
      (h c main_arg0).trans (res_arg0 _), (h c main_arg1).trans (res_arg1 _),
      (h c main_arg2).trans (res_arg2 _), (h c main_arg3).trans (res_arg3 _)⟩)
    (run_main m ρ)

end Cert.ReferenceIdeal.RefRun

end
-- ==== Proof.RefValue.lean ====
/-
  The reference's results, read index by index: the float result is the gated linear unit over the stacked
  frames (`Cert.Spec.G`), the integer result the floor division of the lengths (`Cert.Spec.outLen`).
-/
import proofs.«176770_j1400159338932_2_alg».proof.Proof.RefRun
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The integer result -/

/-- Both sides apply the same operations to the lengths. -/
theorem outI_eq (a : IVec Cert.Spec.SL 32) : outI (F := Ideal) a = Cert.Spec.outLen a := rfl

/-! ## The stacked frames -/

/-- Element `(r, q, f)` of the [32, 2730, 240] view is frame `3q + f / 80`, feature `f % 80`, of batch row `r`:
    both have row-major position `(8190 r + 3 q) · 80 + f` within the first 8190 frames. -/
theorem tri_apply (X : Cert.Spec.SX.Idx → EReal) (r : Fin 32) (q : Fin 2730) (f : Fin 240) (p : Fin 8192) (e : Fin 80)
    (hp : p.val = 3 * q.val + f.val / 80) (he : e.val = f.val % 80) :
    tri (F := Ideal) X (ix3 r q f) = X (ix3 r p e) := by
  have hp' : p.val < 8190 := by omega
  unfold tri
  refine (shapeCast_apply _ _ (ix3 r q f) (ix3 r (⟨p.val, hp'⟩ : Fin 8190) e) ?_).trans ?_
  · rw [Shape.rowMajor_val_three, Shape.rowMajor_val_three]
    show (r.val * 8190 + p.val) * 80 + e.val = (r.val * 2730 + q.val) * 240 + f.val
    omega
  · exact slice3_axis1_apply 0 X _ r (⟨p.val, hp'⟩ : Fin 8190) e p (by simp)

/-- Column `k < 640` of the 720-wide concatenation comes from the part `k / 240` (rows shifted by `k / 240`) at column
    `k % 240`; with the view above that is frame `3 (t + k / 240) + (k % 240) / 80 = 3 t + k / 80`, feature `k % 80`. -/
theorem win_apply (X : Cert.Spec.SX.Idx → EReal) (t : Fin 2728) (r : Fin 32) (k : Fin 640) :
    win (F := Ideal) X (ix3 t r k) = X (ix3 r (Cert.Spec.rowIx t k) (Cert.Spec.colIx k)) := by
  unfold win
  refine (transpose_apply _ _ _ (ix3 t r k) (ix3 r t k) ?_).trans ?_
  · intro b
    match b with
    | ⟨0, _⟩ => rfl
    | ⟨1, _⟩ => rfl
    | ⟨2, _⟩ => rfl
  obtain ⟨k', hk'⟩ : ∃ k' : Fin 720, k'.val = k.val := ⟨⟨k.val, by omega⟩, rfl⟩
  refine (extractStridedSlice_apply _ _ _ (ix3 r t k) (ix3 r t k') ?_).trans ?_
  · intro a
    match a with
    | ⟨0, _⟩ => exact (Nat.zero_add _).symm
    | ⟨1, _⟩ => exact (Nat.zero_add _).symm
    | ⟨2, _⟩ => exact hk'.trans (Nat.zero_add _).symm
  rcases (by omega : k.val < 240 ∨ (240 ≤ k.val ∧ k.val < 480) ∨ 480 ≤ k.val) with h0 | h1 | h2
  ·
    refine (concatenate_apply_piece 2 _ _ (ix3 r t k') 0 (by simp) S32x2728x240 _ rfl rfl 0 (by rfl)
      (ix3 r t (⟨k.val - 0, by omega⟩ : Fin 240)) ?_ ?_).trans ?_
    · intro b hb
      match b with
      | ⟨0, _⟩ => rfl
      | ⟨1, _⟩ => rfl
      | ⟨2, _⟩ => exact absurd rfl hb
    · show 0 + (k.val - 0) = k'.val
      omega
    refine (slice3_axis1_apply 0 _ _ r t (⟨k.val - 0, by omega⟩ : Fin 240) (⟨t.val + 0, by omega⟩ : Fin 2730)
      (by show t.val + 0 = 0 + t.val; omega)).trans ?_
    exact tri_apply X r _ _ _ _ (by rw [Cert.Spec.rowIx_val]; show 3 * t.val + k.val / 80 = 3 * (t.val + 0) + (k.val - 0) / 80; omega)
      (by rw [Cert.Spec.colIx_val]; show k.val % 80 = (k.val - 0) % 80; omega)
  ·
    refine (concatenate_apply_piece 2 _ _ (ix3 r t k') 1 (by simp) S32x2728x240 _ rfl rfl 240 (by rfl)
      (ix3 r t (⟨k.val - 240, by omega⟩ : Fin 240)) ?_ ?_).trans ?_
    · intro b hb
      match b with
      | ⟨0, _⟩ => rfl
      | ⟨1, _⟩ => rfl
      | ⟨2, _⟩ => exact absurd rfl hb
    · show 240 + (k.val - 240) = k'.val
      omega
    refine (slice3_axis1_apply 1 _ _ r t (⟨k.val - 240, by omega⟩ : Fin 240) (⟨t.val + 1, by omega⟩ : Fin 2730)
      (by show t.val + 1 = 1 + t.val; omega)).trans ?_
    exact tri_apply X r _ _ _ _ (by rw [Cert.Spec.rowIx_val]; show 3 * t.val + k.val / 80 = 3 * (t.val + 1) + (k.val - 240) / 80; omega)
      (by rw [Cert.Spec.colIx_val]; show k.val % 80 = (k.val - 240) % 80; omega)
  ·
    refine (concatenate_apply_piece 2 _ _ (ix3 r t k') 2 (by simp) S32x2728x240 _ rfl rfl 480 (by rfl)
      (ix3 r t (⟨k.val - 480, by omega⟩ : Fin 240)) ?_ ?_).trans ?_
    · intro b hb
      match b with
      | ⟨0, _⟩ => rfl
      | ⟨1, _⟩ => rfl
      | ⟨2, _⟩ => exact absurd rfl hb
    · show 480 + (k.val - 480) = k'.val
      omega
    refine (slice3_axis1_apply 2 _ _ r t (⟨k.val - 480, by omega⟩ : Fin 240) (⟨t.val + 2, by omega⟩ : Fin 2730)
      (by show t.val + 2 = 2 + t.val; omega)).trans ?_
    exact tri_apply X r _ _ _ _ (by rw [Cert.Spec.rowIx_val]; show 3 * t.val + k.val / 80 = 3 * (t.val + 2) + (k.val - 480) / 80; omega)
      (by rw [Cert.Spec.colIx_val]; show k.val % 80 = (k.val - 480) % 80; omega)

/-! ## The linear layer -/

/-- The contraction runs over one axis of 640 positions. -/
abbrev contrE : dot_S2728x32x640_S1024x640_S2728x32x1024_2_1_01_0_n_n.contr.Idx ≃ Fin 640 :=
  contrEquiv1 dot_S2728x32x640_S1024x640_S2728x32x1024_2_1_01_0_n_n 640 rfl rfl

/-- At result index `(t, r, o)` and contraction position `k` the left operand is read at `(t, r, k)`. -/
theorem lhsIdx_eq (t : Fin 2728) (r : Fin 32) (o : Fin 1024) (k : Fin 640) :
    dot_S2728x32x640_S1024x640_S2728x32x1024_2_1_01_0_n_n.lhsIdx (ix3 t r o) (contrE.symm k) = ix3 t r k := by
  funext a
  apply Fin.ext
  match a with
  | ⟨0, _⟩ => simp [DotDims.lhsIdx, dot_S2728x32x640_S1024x640_S2728x32x1024_2_1_01_0_n_n]; rfl
  | ⟨1, _⟩ => simp [DotDims.lhsIdx, dot_S2728x32x640_S1024x640_S2728x32x1024_2_1_01_0_n_n]; rfl
  | ⟨2, _⟩ => simp [DotDims.lhsIdx, dot_S2728x32x640_S1024x640_S2728x32x1024_2_1_01_0_n_n]; rfl

/-- and the right operand at `(o, k)`. -/
theorem rhsIdx_eq (t : Fin 2728) (r : Fin 32) (o : Fin 1024) (k : Fin 640) :
    dot_S2728x32x640_S1024x640_S2728x32x1024_2_1_01_0_n_n.rhsIdx (ix3 t r o) (contrE.symm k) = ix2 o k := by
  funext a
  apply Fin.ext
  match a with
  | ⟨0, _⟩ => simp [DotDims.rhsIdx, dot_S2728x32x640_S1024x640_S2728x32x1024_2_1_01_0_n_n]; rfl
  | ⟨1, _⟩ => simp [DotDims.rhsIdx, dot_S2728x32x640_S1024x640_S2728x32x1024_2_1_01_0_n_n]; rfl

/-- The linear layer at `(t, r, o)`: the contraction re-indexed by its one coordinate, each factor read at its index;
    the bias broadcast reads `b o`. -/
theorem pre_apply (X : Cert.Spec.SX.Idx → EReal) (W : Cert.Spec.SW.Idx → EReal) (b : Cert.Spec.SB.Idx → EReal)
    (t : Fin 2728) (r : Fin 32) (o : Fin 1024) :
    pre (F := Ideal) X W b (ix3 t r o) = Cert.Spec.lin X W b t r o := by
  unfold pre Cert.Spec.lin
  rw [addf_apply]
  congr 1
  · show FloatOps.dotGeneral (F := Ideal) dot_S2728x32x640_S1024x640_S2728x32x1024_2_1_01_0_n_n none .single
        (win (F := Ideal) X : FVec Ideal S2728x32x640 .f32) (W : FVec Ideal S1024x640 .f32) (ix3 t r o) = _
    rw [Ideal.dotGeneral_apply, ← Equiv.sum_comp contrE.symm]
    refine Finset.sum_congr rfl fun k _ => ?_
    rw [lhsIdx_eq, rhsIdx_eq, win_apply]
  · refine (broadcastInDim_apply _ _ _ (ix3 t r o) (ix3 (0 : Fin 1) (0 : Fin 1) o) ?_).trans ?_
    · intro a
      match a with
      | ⟨0, _⟩ => rfl
      | ⟨1, _⟩ => rfl
      | ⟨2, _⟩ => rfl
    refine (broadcastInDim_apply _ _ _ (ix3 (0 : Fin 1) (0 : Fin 1) o) (ix1 o) ?_).trans rfl
    intro a
    match a with
    | ⟨0, _⟩ => rfl

/-! ## The gate -/

/-- The pattern `0x3F800000` denotes one. -/
theorem one_f32 : Ideal.ofBits .f32 0x3F800000#32 = 1 := by
  simp [Ideal.ofBits, Ideal.ieee, -EReal.coe_mul]; norm_num

/-- The float result is the gated linear unit: the lower batch rows' linear layer times the logistic function of the
    upper rows' (negate, exponential, one plus, one over: the logistic function's own expression). -/
theorem outF_eq (X : Cert.Spec.SX.Idx → EReal) (W : Cert.Spec.SW.Idx → EReal) (b : Cert.Spec.SB.Idx → EReal) :
    outF (F := Ideal) X W b = Cert.Spec.G X W b := by
  funext j
  obtain ⟨t, h, o, rfl⟩ : ∃ (t : Fin 2728) (h : Fin 16) (o : Fin 1024), j = ix3 t h o := ⟨j 0, j 1, j 2, eq_ix3 j⟩
  rw [Cert.Spec.G_ix3]
  unfold outF Cert.Spec.Gat
  rw [mulf_apply]
  congr 1
  · exact (slice3_axis1_apply 0 _ _ t h o (Cert.Spec.lo h) (by show h.val = 0 + h.val; omega)).trans (pre_apply X W b t _ o)
  · show Ideal.div (Ideal.ofBits .f32 0x3F800000#32) (Ideal.ofBits .f32 0x3F800000#32
        + Ideal.exp (-(extractStridedSlice S2728x16x1024 ![0, 16, 0] (pre (F := Ideal) X W b) slices_S2728x32x1024_S2728x16x1024_0_16_0 (ix3 t h o)))) = _
    rw [one_f32, slice3_axis1_apply 16 _ _ t h o (Cert.Spec.hi h) (by show h.val + 16 = 16 + h.val; omega), pre_apply]
    rfl

end Cert.ReferenceIdeal.RefValue

end
-- ==== Proof.KHost.lean ====
/-
  What the host program leaves in the arrays the kernel's windows read, at the ideal instance (floats are extended
  reals, a change of float format is the identity): the weight transposed to [640, 1024], the bias as a row
  [1, 1024], and the output lengths `lengths // 3 - 2`.
-/
import proofs.«176770_j1400159338932_2_alg».proof.Proof.KEntry
import proofs.«176770_j1400159338932_2_alg».proof.Proof.Spec
import Idealize.ShloMosaic.Lib.StableHlo.Run
import Idealize.ShloMosaic.Lib.ValueIdx
import Idealize.ShloMosaic.Lib.Pipeline.Value

set_option maxRecDepth 16384

noncomputable section

namespace Cert.KernelIdeal.HostVal

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (c : Dev nD)

/-! ## The weight: transposed, then rounded to bf16 -/

theorem V_v4_eq : @Eq (S640x1024.Idx → EReal) (V (F := Ideal) m c main_v4)
    (truncf (F := Ideal) .bf16 (transpose S640x1024 [1, 0] (m ((c : Thread nD τ).loc main_arg2) : S1024x640.Idx → EReal)
      transposes_S1024x640_S640x1024_1_0) bitsLt_bf16_f32) := by
  dsimp only [V]
  simp only [hostOps0, hostOps0_1, hostOps0_2, List.flatten_cons, List.flatten_nil, List.append_nil, List.cons_append,
    List.nil_append, StableHlo.TRef.nullary, StableHlo.TRef.unary, StableHlo.TRef.binary, StableHlo.TRef.ternary]
  after_results

/-- Entry (k, o) of the weight the kernel reads is entry (o, k) of the weight argument. -/
theorem V_v4_apply (k : Fin 640) (o : Fin 1024) :
    (V (F := Ideal) m c main_v4 : S640x1024.Idx → EReal) (ix2 k o)
      = (m ((c : Thread nD τ).loc main_arg2) : S1024x640.Idx → EReal) (ix2 o k) := by
  rw [V_v4_eq]
  show transpose S640x1024 [1, 0] (m ((c : Thread nD τ).loc main_arg2) : S1024x640.Idx → EReal)
    transposes_S1024x640_S640x1024_1_0 (ix2 k o) = _
  refine transpose_apply [1, 0] _ _ (ix2 k o) (ix2 o k) fun b => ?_
  match b with
  | ⟨0, _⟩ => rfl
  | ⟨1, _⟩ => rfl

/-! ## The bias: reshaped to one row -/

theorem V_v5_eq : @Eq (S1x1024.Idx → EReal) (V (F := Ideal) m c main_v5)
    (shapeCast S1x1024 (m ((c : Thread nD τ).loc main_arg3) : S1024.Idx → EReal) shapeCasts_S1024_S1x1024) := by
  dsimp only [V]
  simp only [hostOps0, hostOps0_1, hostOps0_2, List.flatten_cons, List.flatten_nil, List.append_nil, List.cons_append,
    List.nil_append, StableHlo.TRef.nullary, StableHlo.TRef.unary, StableHlo.TRef.binary, StableHlo.TRef.ternary]
  after_results
  rfl

/-- Entry (0, o) of the bias row the kernel reads is entry o of the bias argument. -/
theorem V_v5_apply (o : Fin 1024) :
    (V (F := Ideal) m c main_v5 : S1x1024.Idx → EReal) (ix2 (0 : Fin 1) o)
      = (m ((c : Thread nD τ).loc main_arg3) : S1024.Idx → EReal) (ix1 o) := by
  rw [V_v5_eq]
  refine shapeCast_apply _ _ (ix2 (0 : Fin 1) o) (ix1 o) ?_
  rw [Shape.rowMajor_val_one, Shape.rowMajor_val_two]
  show o.val = 0 * 1024 + o.val
  omega

/-! ## The output lengths -/

/-- The lengths result is `lengths // 3 - 2` of the lengths argument. -/
theorem V_v2 : @Eq (S32.Idx → BitVec 32) (V (F := Ideal) m c main_v2)
    (Cert.Spec.outLen (m ((c : Thread nD τ).loc main_arg1))) := by
  dsimp only [V]
  simp only [hostOps0, hostOps0_1, hostOps0_2, List.flatten_cons, List.flatten_nil, List.append_nil, List.cons_append,
    List.nil_append, StableHlo.TRef.nullary, StableHlo.TRef.unary, StableHlo.TRef.binary, StableHlo.TRef.ternary]
  after_results_simp
  rfl

end Cert.KernelIdeal.HostVal

end
-- ==== Proof.Pay2.lean ====
/-
  The kernel body's second payload read at an index, at the ideal instance (floats are extended reals, a change
  of float format is the identity).

  The payload reshapes the stacked frames [22, 32, 640] to [704, 640] (row 32·s + r), multiplies by the weight
  [640, 1024] into a zero accumulator, adds the bias row [1, 1024] broadcast over the 704 rows, reshapes the sum to
  [22, 32, 1024] and multiplies the batch rows 0..15 by the logistic function of the batch rows 16..31. So entry
  (s, h, o) is lin s h o · σ (lin s (h + 16) o) with lin s r o = (∑ k < 640, x[s, r, k] · w[k, o]) + b[0, o].
-/
import proofs.«176770_j1400159338932_2_alg».proof.Proof.Gen.KernelIdeal.Skeleton
import proofs.«176770_j1400159338932_2_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The matmul's dimension numbers: [704, 640] × [640, 1024], contracting the 640. -/
abbrev DD : DotDims S704x640 S640x1024 S704x1024 := dot_S704x640_S640x1024_S704x1024_1_0_0_1_n_n

/-! ## The operand indices of the contraction, coordinate by coordinate -/

theorem lhs_0 (i : S704x1024.Idx) (q : DD.contr.Idx) : (DD.lhsIdx i q 0).val = (i 0).val := by
  unfold DotDims.lhsIdx
  rw [dif_neg (show ¬(0 : Fin S704x640.rank) ∈ DD.lhsBatch by decide),
    dif_pos (show (0 : Fin S704x640.rank) ∈ DD.lhsNonContracting by decide)]
  rfl

theorem lhs_1 (i : S704x1024.Idx) (q : DD.contr.Idx) : (DD.lhsIdx i q 1).val = (q ⟨0, by decide⟩).val :=
  DD.lhsIdx_val_of_single rfl i q

theorem rhs_0 (i : S704x1024.Idx) (q : DD.contr.Idx) : (DD.rhsIdx i q 0).val = (q ⟨0, by decide⟩).val :=
  DD.rhsIdx_val_of_single rfl i q

theorem rhs_1 (i : S704x1024.Idx) (q : DD.contr.Idx) : (DD.rhsIdx i q 1).val = (i 1).val := by
  unfold DotDims.rhsIdx
  rw [dif_neg (show ¬(1 : Fin S640x1024.rank) ∈ DD.rhsBatch by decide),
    dif_pos (show (1 : Fin S640x1024.rank) ∈ DD.rhsNonContracting by decide)]
  rfl

/-! ## The matmul into a zero accumulator at (m, o): the sum over the 640 contracted positions -/

theorem mm_apply (L : FVec Ideal S704x640 .bf16) (R : FVec Ideal S640x1024 .bf16) (m : Fin 704) (o : Fin 1024) :
    matmul DD none L R (constant (F := Ideal) S704x1024 .f32 0x00000000#32) (ix2 m o)
      = ∑ k : Fin 640, L (ix2 m k) * R (ix2 k o) := by
  simp only [matmul]
  rw [Ideal.matmul_constant_zero_apply, ← Equiv.sum_comp (contrEquiv1 DD 640 rfl rfl).symm]
  refine Finset.sum_congr rfl fun k _ => ?_
  have hk := contrEquiv1_symm_val DD 640 rfl rfl k
  have el : DD.lhsIdx (ix2 m o) ((contrEquiv1 DD 640 rfl rfl).symm k) = ix2 m k := funext fun a => Fin.ext (by
    match a with
    | ⟨0, _⟩ => exact lhs_0 _ _
    | ⟨1, _⟩ => exact (lhs_1 _ _).trans hk)
  have er : DD.rhsIdx (ix2 m o) ((contrEquiv1 DD 640 rfl rfl).symm k) = ix2 k o := funext fun a => Fin.ext (by
    match a with
    | ⟨0, _⟩ => exact (rhs_0 _ _).trans hk
    | ⟨1, _⟩ => exact rhs_1 _ _)
  rw [el, er]

/-! ## The linear layer on the block, and the value before the gate -/

/-- Row (s, r) of the block times column o of the weight, plus the bias. -/
def lin (v45 : FVec Ideal S22x32x640 .bf16) (v47 : FVec Ideal S640x1024 .bf16) (v50 : FVec Ideal S1x1024 .f32)
    (s : Fin 22) (r : Fin 32) (o : Fin 1024) : EReal :=
  (∑ k : Fin 640, v45 (ix3 s r k) * v47 (ix2 k o)) + v50 (ix2 (0 : Fin 1) o)

/-- The matmul plus bias, as [704, 1024]. -/
def flat (v45 : FVec Ideal S22x32x640 .bf16) (v47 : FVec Ideal S640x1024 .bf16) (v50 : FVec Ideal S1x1024 .f32) :
    FVec Ideal S704x1024 .f32 :=
  addf (matmul DD none (shapeCast S704x640 v45 shapeCasts_S22x32x640_S704x640)
      (shapeCast S640x1024 v47 shapeCasts_S640x1024_S640x1024) (constant S704x1024 .f32 0x00000000#32))
    (broadcastTo S704x1024 (shapeCast S1x1024 v50 shapeCasts_S1x1024_S1x1024) broadcasts_S1x1024_S704x1024)

/-- The same reshaped to [22, 32, 1024]. -/
def pre (v45 : FVec Ideal S22x32x640 .bf16) (v47 : FVec Ideal S640x1024 .bf16) (v50 : FVec Ideal S1x1024 .f32) :
    FVec Ideal S22x32x1024 .f32 :=
  shapeCast S22x32x1024 (flat v45 v47 v50) shapeCasts_S704x1024_S22x32x1024

/-- Row 32·s + r of the reshaped block is row (s, r) of the block. -/
theorem block_row (v45 : FVec Ideal S22x32x640 .bf16) (s : Fin 22) (r : Fin 32) (k : Fin 640) :
    shapeCast S704x640 v45 shapeCasts_S22x32x640_S704x640 (ix2 (⟨32 * s.val + r.val, by omega⟩ : Fin 704) k)
      = v45 (ix3 s r k) := by
  refine shapeCast_apply v45 _ _ (ix3 s r k) ?_
  rw [Shape.rowMajor_val_three, Shape.rowMajor_val_two]
  show (s.val * 32 + r.val) * 640 + k.val = (32 * s.val + r.val) * 640 + k.val
  omega

/-- The bias row broadcast over the rows reads the bias at the column. -/
theorem bias_row (v50 : FVec Ideal S1x1024 .f32) (m : Fin 704) (o : Fin 1024) :
    broadcastTo S704x1024 (shapeCast S1x1024 v50 shapeCasts_S1x1024_S1x1024) broadcasts_S1x1024_S704x1024 (ix2 m o)
      = v50 (ix2 (0 : Fin 1) o) := by
  rw [shapeCast_self]
  refine broadcastTo_apply v50 _ (ix2 m o) (ix2 (0 : Fin 1) o) fun a => ?_
  match a with
  | ⟨0, _⟩ => rfl
  | ⟨1, _⟩ => rfl

theorem flat_apply (v45 : FVec Ideal S22x32x640 .bf16) (v47 : FVec Ideal S640x1024 .bf16) (v50 : FVec Ideal S1x1024 .f32)
    (s : Fin 22) (r : Fin 32) (o : Fin 1024) :
    flat v45 v47 v50 (ix2 (⟨32 * s.val + r.val, by omega⟩ : Fin 704) o) = lin v45 v47 v50 s r o := by
  unfold flat lin
  rw [addf_apply, mm_apply, bias_row, shapeCast_self]
  exact congrArg (· + v50 (ix2 (0 : Fin 1) o)) (Finset.sum_congr rfl fun k _ => by rw [block_row])

theorem pre_apply (v45 : FVec Ideal S22x32x640 .bf16) (v47 : FVec Ideal S640x1024 .bf16) (v50 : FVec Ideal S1x1024 .f32)
    (s : Fin 22) (r : Fin 32) (o : Fin 1024) :
    pre v45 v47 v50 (ix3 s r o) = lin v45 v47 v50 s r o := by
  unfold pre
  refine (shapeCast_apply (flat v45 v47 v50) _ (ix3 s r o) (ix2 (⟨32 * s.val + r.val, by omega⟩ : Fin 704) o) ?_).trans
    (flat_apply v45 v47 v50 s r o)
  rw [Shape.rowMajor_val_three, Shape.rowMajor_val_two]
  show (32 * s.val + r.val) * 1024 + o.val = (s.val * 32 + r.val) * 1024 + o.val
  omega

/-! ## The two halves of the batch rows -/

theorem lower_half (x : FVec Ideal S22x32x1024 .f32) (s : Fin 22) (h : Fin 16) (o : Fin 1024) :
    extractStridedSlice S22x16x1024 ![0, 0, 0] x slices_S22x32x1024_o0_0_0_S22x16x1024 (ix3 s h o)
      = x (ix3 s (Cert.Spec.lo h) o) := by
  refine extractStridedSlice_apply _ x _ (ix3 s h o) (ix3 s (Cert.Spec.lo h) o) fun a => ?_
  match a with
  | ⟨0, _⟩ => show s.val = 0 + s.val; omega
  | ⟨1, _⟩ => show h.val = 0 + h.val; omega
  | ⟨2, _⟩ => show o.val = 0 + o.val; omega

theorem upper_half (x : FVec Ideal S22x32x1024 .f32) (s : Fin 22) (h : Fin 16) (o : Fin 1024) :
    extractStridedSlice S22x16x1024 ![0, 16, 0] x slices_S22x32x1024_o0_16_0_S22x16x1024 (ix3 s h o)
      = x (ix3 s (Cert.Spec.hi h) o) := by
  refine extractStridedSlice_apply _ x _ (ix3 s h o) (ix3 s (Cert.Spec.hi h) o) fun a => ?_
  match a with
  | ⟨0, _⟩ => show s.val = 0 + s.val; omega
  | ⟨1, _⟩ => show h.val + 16 = 16 + h.val; omega
  | ⟨2, _⟩ => show o.val = 0 + o.val; omega

/-! ## The payload -/

/-- The payload is the lower half of the value before the gate times the logistic function of the upper half. -/
theorem pay2_eq (v45 : FVec Ideal S22x32x640 .bf16) (v47 : FVec Ideal S640x1024 .bf16) (v50 : FVec Ideal S1x1024 .f32) :
    k0_pay2 (F := Ideal) v45 v47 v50
      = mulf (extractStridedSlice S22x16x1024 ![0, 0, 0] (pre v45 v47 v50) slices_S22x32x1024_o0_0_0_S22x16x1024)
          (logistic (extractStridedSlice S22x16x1024 ![0, 16, 0] (pre v45 v47 v50) slices_S22x32x1024_o0_16_0_S22x16x1024)) :=
  rfl

/-- THE PAYLOAD AT (s, h, o): the linear layer on batch row h times the logistic function of the linear layer on
    batch row h + 16. -/
theorem pay2_apply (v45 : Vec Ideal S22x32x640 .bf16) (v47 : Vec Ideal S640x1024 .bf16) (v50 : Vec Ideal S1x1024 .f32)
    (s : Fin 22) (h : Fin 16) (o : Fin 1024) :
    k0_pay2 (F := Ideal) v45 v47 v50 (ix3 s h o)
      = ((∑ k : Fin 640, v45 (ix3 s (Cert.Spec.lo h) k) * v47 (ix2 k o)) + v50 (ix2 (0 : Fin 1) o))
        * Ideal.logistic ((∑ k : Fin 640, v45 (ix3 s (Cert.Spec.hi h) k) * v47 (ix2 k o)) + v50 (ix2 (0 : Fin 1) o)) := by
  rw [pay2_eq]
  show extractStridedSlice S22x16x1024 ![0, 0, 0] (pre v45 v47 v50) slices_S22x32x1024_o0_0_0_S22x16x1024 (ix3 s h o)
      * Ideal.logistic (extractStridedSlice S22x16x1024 ![0, 16, 0] (pre v45 v47 v50) slices_S22x32x1024_o0_16_0_S22x16x1024 (ix3 s h o)) = _
  rw [lower_half, upper_half, pre_apply, pre_apply]
  rfl

end Cert.KernelIdeal.Pay

end
-- ==== Proof.KPoint.lean ====
/-
  The kernel body's output block at one grid point, at the ideal instance, read at an index.

  The body stores the stacked windows of the point's two input blocks into its scratch buffer, then in four trips of
  22 time steps loads rows 22·k … 22·k + 21 of the scratch, the weight block and the bias row, and stores their gated
  product at the same rows of the output block. Each trip's piece is therefore a block of ONE function of the output
  block's index, `outG`: at (s, h, o) the linear layer on batch row h times the logistic function of the linear layer
  on batch row h + 16, the linear layer being (∑ k < 640, window[s, r, k] · w[k, o]) + b[0, o]. The four pieces tile the
  block, so the block the body leaves is that function.
-/
import proofs.«176770_j1400159338932_2_alg».proof.Proof.KData
import proofs.«176770_j1400159338932_2_alg».proof.Proof.Pay2
import Idealize.ShloMosaic.Lib.ValueIdx
import Idealize.ShloMosaic.Lib.Pipeline.Value
import Idealize.ShloMosaic.Lib.WholeRead

set_option maxRecDepth 16384

noncomputable section

open scoped BigOperators

namespace Cert.KernelIdeal.Point

open Idealize.ShloMosaic Idealize.ShloMosaic.TcCoe Idealize.ShloMosaic.Tactic
open Idealize.SL Idealize.SL.Sem
open Idealize.ShloMosaic.ValueIdx
open Cert.KernelIdeal Cert.KernelIdeal.Gen Cert.KernelIdeal.Hand

variable {F : FTy → Type} [FloatOps F]

/-! ## One trip's piece -/

/-- Trip `k`'s piece: at rows `22 k … 22 k + 21` of the output block, the gated product of the scratch slab at the same
    rows, the whole weight block and the whole bias row. -/
def tripPiece (arg3 : Memref sig .tc .vmem S640x1024 .bf16) (arg4 : Memref sig .tc .vmem S1x1024 .f32) (arg6 : Memref sig .tc .vmem S88x32x640 .bf16)
    (X_arg3 : BufTy.Contents (Elt F) arg3.view.ty) (X_arg4 : BufTy.Contents (Elt F) arg4.view.ty) (X_arg6 : BufTy.Contents (Elt F) arg6.view.ty) (k : Fin k0_t1_loop.trips) : View.Piece (Elt F) S88x16x1024 .f32 :=
  ⟨Rect.unit (s := S88x16x1024) (k0_off2 k) S22x16x1024.size (k0_off2_inb k),
    k0_pay2 (View.readAt (Elt F) arg6.view (Rect.unit (s := S88x32x640) (k0_off1 k) S22x32x640.size (k0_off1_inb k)).toLoadRect X_arg6)
      (View.readAt (Elt F) arg3.view (Rect.unit (s := S640x1024) ![0, 0] S640x1024.size inb_S640x1024_S640x1024_0_0).toLoadRect X_arg3)
      (View.readAt (Elt F) arg4.view (Rect.unit (s := S1x1024) ![0, 0] S1x1024.size inb_S1x1024_S1x1024_0_0).toLoadRect X_arg4)⟩

/-- The trip leaves exactly that one piece in the output block. -/
theorem trip_pieces (𝒱 : Variants) (bd : Option 𝒱.V) (c : Dev nD) (i : grid0.Coords) (arg1 : Memref sig .tc .vmem S32x264x80 .f32) (harg1 : arg1.IsWhole) (arg2 : Memref sig .tc .vmem S32x8x80 .f32) (harg2 : arg2.IsWhole) (arg3 : Memref sig .tc .vmem S640x1024 .bf16) (harg3 : arg3.IsWhole) (arg4 : Memref sig .tc .vmem S1x1024 .f32) (harg4 : arg4.IsWhole) (arg5 : Memref sig .tc .vmem S88x16x1024 .f32) (harg5 : arg5.IsWhole) (arg6 : Memref sig .tc .vmem S88x32x640 .bf16) (harg6 : arg6.IsWhole)
    (X_arg3 : BufTy.Contents (Elt F) arg3.view.ty) (X_arg4 : BufTy.Contents (Elt F) arg4.view.ty) (X_arg6 : BufTy.Contents (Elt F) arg6.view.ty) (k : Fin k0_t1_loop.trips) :
    (trip_k0_t1 (F := F) 𝒱 c bd i arg1 harg1 arg2 harg2 arg3 harg3 arg4 harg4 arg5 harg5 arg6 harg6 X_arg3 X_arg4 X_arg6 k).1 = [tripPiece arg3 arg4 arg6 X_arg3 X_arg4 X_arg6 k] := by
  unfold trip_k0_t1 tripPiece
  rfl

/-- Every piece of the trips before `n` is some trip's piece. -/
theorem mem_pb (𝒱 : Variants) (bd : Option 𝒱.V) (c : Dev nD) (i : grid0.Coords) (arg1 : Memref sig .tc .vmem S32x264x80 .f32) (harg1 : arg1.IsWhole) (arg2 : Memref sig .tc .vmem S32x8x80 .f32) (harg2 : arg2.IsWhole) (arg3 : Memref sig .tc .vmem S640x1024 .bf16) (harg3 : arg3.IsWhole) (arg4 : Memref sig .tc .vmem S1x1024 .f32) (harg4 : arg4.IsWhole) (arg5 : Memref sig .tc .vmem S88x16x1024 .f32) (harg5 : arg5.IsWhole) (arg6 : Memref sig .tc .vmem S88x32x640 .bf16) (harg6 : arg6.IsWhole) (X_arg3 : BufTy.Contents (Elt F) arg3.view.ty) (X_arg4 : BufTy.Contents (Elt F) arg4.view.ty) (X_arg6 : BufTy.Contents (Elt F) arg6.view.ty) :
    ∀ (n : ℕ), n ≤ k0_t1_loop.trips → ∀ p ∈ pb_k0_t1 (F := F) 𝒱 c bd i arg1 harg1 arg2 harg2 arg3 harg3 arg4 harg4 arg5 harg5 arg6 harg6 X_arg3 X_arg4 X_arg6 n,
      ∃ k : Fin k0_t1_loop.trips, p = tripPiece arg3 arg4 arg6 X_arg3 X_arg4 X_arg6 k
  | 0, _, p, hp => by rw [pb_k0_t1.eq_1] at hp; exact absurd hp List.not_mem_nil
  | n + 1, hn, p, hp => by
    have e := pb_k0_t1_succ (F := F) 𝒱 c bd i arg1 harg1 arg2 harg2 arg3 harg3 arg4 harg4 arg5 harg5 arg6 harg6 X_arg3 X_arg4 X_arg6 ⟨n, hn⟩
    rw [show n + 1 = (⟨n, hn⟩ : Fin k0_t1_loop.trips).val + 1 from rfl, e] at hp
    rcases List.mem_append.mp hp with h | h
    · rw [show tripL_k0_t1 (F := F) 𝒱 c bd i arg1 harg1 arg2 harg2 arg3 harg3 arg4 harg4 arg5 harg5 arg6 harg6 X_arg3 X_arg4 X_arg6 ⟨n, hn⟩
          = (trip_k0_t1 (F := F) 𝒱 c bd i arg1 harg1 arg2 harg2 arg3 harg3 arg4 harg4 arg5 harg5 arg6 harg6 X_arg3 X_arg4 X_arg6 ⟨n, hn⟩).1 from rfl, trip_pieces] at h
      exact ⟨⟨n, hn⟩, List.mem_singleton.mp h⟩
    · exact mem_pb 𝒱 bd c i arg1 harg1 arg2 harg2 arg3 harg3 arg4 harg4 arg5 harg5 arg6 harg6 X_arg3 X_arg4 X_arg6 n (Nat.le_of_succ_le hn) p h

/-! ## The body's pieces -/

/-- What the scratch buffer holds when the loop starts: the stacked windows of the two input blocks, stored whole. -/
def scratchAt (arg1 : Memref sig .tc .vmem S32x264x80 .f32) (harg1 : arg1.IsWhole) (arg2 : Memref sig .tc .vmem S32x8x80 .f32) (harg2 : arg2.IsWhole)
    (arg6 : Memref sig .tc .vmem S88x32x640 .bf16) (x0 : Vec F S32x264x80 .f32) (x1 : Vec F S32x8x80 .f32) : BufTy.Contents (Elt F) arg6.view.ty :=
  arg6.view.writes (Elt F) arg6.view.junk
    [⟨Rect.unit (s := S88x32x640) ![0, 0, 0] S88x32x640.size inb_S88x32x640_S88x32x640_0_0_0,
      k0_pay1 (View.readAt (Elt F) arg1.view (Rect.unit (s := S32x264x80) ![0, 0, 0] S32x264x80.size inb_S32x264x80_S32x264x80_0_0_0).toLoadRect (harg1.unread x0))
        (View.readAt (Elt F) arg2.view (Rect.unit (s := S32x8x80) ![0, 0, 0] S32x8x80.size inb_S32x8x80_S32x8x80_0_0_0).toLoadRect (harg2.unread x1))⟩]

/-- The body's pieces are the pieces of the loop's trips, run from that scratch and the weight and bias buffers as
    they were. -/
theorem kernel_pieces (c : Dev nD) (i : grid0.Coords) (arg1 : Memref sig .tc .vmem S32x264x80 .f32) (harg1 : arg1.IsWhole) (arg2 : Memref sig .tc .vmem S32x8x80 .f32) (harg2 : arg2.IsWhole) (arg3 : Memref sig .tc .vmem S640x1024 .bf16) (harg3 : arg3.IsWhole) (arg4 : Memref sig .tc .vmem S1x1024 .f32) (harg4 : arg4.IsWhole) (arg5 : Memref sig .tc .vmem S88x16x1024 .f32) (harg5 : arg5.IsWhole) (arg6 : Memref sig .tc .vmem S88x32x640 .bf16) (harg6 : arg6.IsWhole)
    (x0 : Vec F S32x264x80 .f32) (x1 : Vec F S32x8x80 .f32) (x2 : Vec F S640x1024 .bf16) (x3 : Vec F S1x1024 .f32) :
    (kernelRun c i arg1 harg1 arg2 harg2 arg3 harg3 arg4 harg4 arg5 harg5 arg6 harg6 x0 x1 x2 x3).1
      = pb_k0_t1 (F := F) Variants.none c none i arg1 harg1 arg2 harg2 arg3 harg3 arg4 harg4 arg5 harg5 arg6 harg6 (harg3.unread x2) (harg4.unread x3)
          (scratchAt arg1 harg1 arg2 harg2 arg6 x0 x1) k0_t1_loop.trips := by
  unfold kernelRun scratchAt
  rfl

/-! ## The loads -/

theorem hz2 : (![0, 0] : Fin 2 → Nat) = fun _ => 0 := funext fun a => by fin_cases a <;> rfl
theorem hz3 : (![0, 0, 0] : Fin 3 → Nat) = fun _ => 0 := funext fun a => by fin_cases a <;> rfl

/-- A whole buffer loaded whole reads its contents. -/
theorem readAt_whole {s : Shape} {e : EltTy} (M : Memref sig .tc .vmem s e) (hM : M.IsWhole) (X : s.Idx → Elt F e)
    {off : Fin s.rank → Nat} (h : off = fun _ => 0) (inb : ∀ a, off a + s.size a ≤ s.size a) :
    View.readAt (Elt F) M.view (Rect.unit (s := s) off s.size inb).toLoadRect (hM.unread X) = X := by
  rw [View.readAt_eq_ld, hM.read_unread, View.ld_unit_zero h]

/-- The slab trip `k` loads from the scratch is rows `22 k … 22 k + 21` of the stacked windows. -/
theorem slab_apply (arg1 : Memref sig .tc .vmem S32x264x80 .f32) (harg1 : arg1.IsWhole) (arg2 : Memref sig .tc .vmem S32x8x80 .f32) (harg2 : arg2.IsWhole)
    (arg6 : Memref sig .tc .vmem S88x32x640 .bf16) (x0 : Vec F S32x264x80 .f32) (x1 : Vec F S32x8x80 .f32)
    (k : Fin k0_t1_loop.trips) (s' : Fin 22) (r : Fin 32) (j : Fin 640) (s : Fin 88) (hs : s.val = 22 * k.val + s'.val) :
    View.readAt (Elt F) arg6.view (Rect.unit (s := S88x32x640) (k0_off1 k) S22x32x640.size (k0_off1_inb k)).toLoadRect
        (scratchAt arg1 harg1 arg2 harg2 arg6 x0 x1) (ix3 s' r j)
      = k0_pay1 x0 x1 (ix3 s r j) := by
  unfold scratchAt
  rw [View.readAt_writes_junk_eq_canon, View.canon_unit_zero hz3, readAt_whole arg1 harg1 x0 hz3, readAt_whole arg2 harg2 x1 hz3]
  show k0_pay1 x0 x1 ((Rect.unit (s := S88x32x640) (k0_off1 k) S22x32x640.size (k0_off1_inb k)).emb (ix3 s' r j)) = _
  congr 1
  funext a
  apply Fin.ext
  rw [Rect.emb_apply]
  show (k0_off1 k) a + 1 * (ix3 s' r j a).val = (ix3 s r j a).val
  rw [k0_off1_eq]
  match a with
  | ⟨0, _⟩ => show 22 * k.val + 1 * s'.val = s.val; omega
  | ⟨1, _⟩ => show 0 + 1 * r.val = r.val; omega
  | ⟨2, _⟩ => show 0 + 1 * j.val = j.val; omega

/-! ## The block as one function of its index -/

/-- The linear layer over the stacked windows of the two input blocks: step `s` of the block, batch row `r`, output
    feature `o`. -/
def linG (x0 : Vec Ideal S32x264x80 .f32) (x1 : Vec Ideal S32x8x80 .f32) (x2 : Vec Ideal S640x1024 .bf16) (x3 : Vec Ideal S1x1024 .f32)
    (s : Fin 88) (r : Fin 32) (o : Fin 1024) : EReal :=
  (∑ k : Fin 640, k0_pay1 (F := Ideal) x0 x1 (ix3 s r k) * x2 (ix2 k o)) + x3 (ix2 (0 : Fin 1) o)

/-- The gated product over the whole block. -/
def outG (x0 : Vec Ideal S32x264x80 .f32) (x1 : Vec Ideal S32x8x80 .f32) (x2 : Vec Ideal S640x1024 .bf16) (x3 : Vec Ideal S1x1024 .f32) :
    S88x16x1024.Idx → EReal := fun y =>
  linG x0 x1 x2 x3 (y 0) (Cert.Spec.lo (y 1)) (y 2) * Ideal.logistic (linG x0 x1 x2 x3 (y 0) (Cert.Spec.hi (y 1)) (y 2))

theorem outG_ix3 (x0 : Vec Ideal S32x264x80 .f32) (x1 : Vec Ideal S32x8x80 .f32) (x2 : Vec Ideal S640x1024 .bf16) (x3 : Vec Ideal S1x1024 .f32)
    (s : Fin 88) (h : Fin 16) (o : Fin 1024) :
    outG x0 x1 x2 x3 (ix3 s h o)
      = linG x0 x1 x2 x3 s (Cert.Spec.lo h) o * Ideal.logistic (linG x0 x1 x2 x3 s (Cert.Spec.hi h) o) := rfl

/-- Trip `k`'s rectangle places its local index `(s', h, o)` at `(22 k + s', h, o)`. -/
theorem emb_out (k : Fin k0_t1_loop.trips) (s' : Fin 22) (h : Fin 16) (o : Fin 1024) (s : Fin 88) (hs : s.val = 22 * k.val + s'.val) :
    (Rect.unit (s := S88x16x1024) (k0_off2 k) S22x16x1024.size (k0_off2_inb k)).emb (ix3 s' h o) = ix3 s h o := by
  funext a
  apply Fin.ext
  rw [Rect.emb_apply]
  show (k0_off2 k) a + 1 * (ix3 s' h o a).val = (ix3 s h o a).val
  rw [k0_off2_eq]
  match a with
  | ⟨0, _⟩ => show 22 * k.val + 1 * s'.val = s.val; omega
  | ⟨1, _⟩ => show 0 + 1 * h.val = h.val; omega
  | ⟨2, _⟩ => show 0 + 1 * o.val = o.val; omega

/-- Trip `k`'s payload at its local index is the gated product at the block's index. -/
theorem pay_outG (arg1 : Memref sig .tc .vmem S32x264x80 .f32) (harg1 : arg1.IsWhole) (arg2 : Memref sig .tc .vmem S32x8x80 .f32) (harg2 : arg2.IsWhole)
    (arg3 : Memref sig .tc .vmem S640x1024 .bf16) (harg3 : arg3.IsWhole) (arg4 : Memref sig .tc .vmem S1x1024 .f32) (harg4 : arg4.IsWhole)
    (arg6 : Memref sig .tc .vmem S88x32x640 .bf16)
    (x0 : Vec Ideal S32x264x80 .f32) (x1 : Vec Ideal S32x8x80 .f32) (x2 : Vec Ideal S640x1024 .bf16) (x3 : Vec Ideal S1x1024 .f32)
    (k : Fin k0_t1_loop.trips) (s' : Fin 22) (h : Fin 16) (o : Fin 1024) (s : Fin 88) (hs : s.val = 22 * k.val + s'.val) :
    k0_pay2 (F := Ideal)
        (View.readAt (Elt Ideal) arg6.view (Rect.unit (s := S88x32x640) (k0_off1 k) S22x32x640.size (k0_off1_inb k)).toLoadRect
          (scratchAt arg1 harg1 arg2 harg2 arg6 x0 x1))
        (View.readAt (Elt Ideal) arg3.view (Rect.unit (s := S640x1024) ![0, 0] S640x1024.size inb_S640x1024_S640x1024_0_0).toLoadRect (harg3.unread x2))
        (View.readAt (Elt Ideal) arg4.view (Rect.unit (s := S1x1024) ![0, 0] S1x1024.size inb_S1x1024_S1x1024_0_0).toLoadRect (harg4.unread x3))
        (ix3 s' h o)
      = outG x0 x1 x2 x3 (ix3 s h o) := by
  rw [Cert.KernelIdeal.Pay.pay2_apply, outG_ix3, readAt_whole arg3 harg3 x2 hz2, readAt_whole arg4 harg4 x3 hz2]
  unfold linG
  simp only [fun (r : Fin 32) (j : Fin 640) => slab_apply arg1 harg1 arg2 harg2 arg6 x0 x1 k s' r j s hs]

/-! ## The output block after the body at a grid point -/

/-- The linear layer at grid point `t`, over the point's blocks. -/
def linP (m : (ℓ : Loc nD τ sig) → Buf (Elt Ideal) ℓ) (c : Dev nD) (t : Fin cfg0.N) (s : Fin 88) (r : Fin 32) (o : Fin 1024) : EReal :=
  linG (blk0 m c t) (iblk m c 1 t) (iblk m c 2 t) (iblk m c 3 t) s r o

/-- The output block the body leaves at point `t` is the gated product over the point's blocks. -/
theorem outAt_eq (m : (ℓ : Loc nD τ sig) → Buf (Elt Ideal) ℓ) (c : Dev nD) (t : Fin cfg0.N) :
    outAt (F := Ideal) m c t = outG (blk0 m c t) (iblk m c 1 t) (iblk m c 2 t) (iblk m c 3 t) := by
  funext y
  unfold outAt
  rw [View.read_writes_junk_apply_eq_canon]
  refine View.canon_apply_of_pieces _ _ ?_ y (cover_out m c t y)
  intro p hp x
  unfold piecesAt at hp
  rw [kernel_pieces] at hp
  obtain ⟨k, rfl⟩ := mem_pb _ _ _ _ _ _ _ _ _ _ _ _ _ _ _ _ _ _ _ _ (le_refl _) p hp
  have hk : k.val < 4 := Nat.lt_of_lt_of_le k.isLt k0_t1_abs.2.1
  obtain ⟨s', h, o, rfl⟩ : ∃ (s' : Fin 22) (h : Fin 16) (o : Fin 1024), x = ix3 s' h o := ⟨x 0, x 1, x 2, eq_ix3 x⟩
  unfold tripPiece
  dsimp only
  rw [emb_out k s' h o ⟨22 * k.val + s'.val, by omega⟩ rfl]
  exact pay_outG _ _ _ _ _ _ _ _ _ _ _ _ _ k s' h o _ rfl

theorem outAt_apply (m : (ℓ : Loc nD τ sig) → Buf (Elt Ideal) ℓ) (c : Dev nD) (t : Fin cfg0.N) (s : Fin 88) (h : Fin 16) (o : Fin 1024) :
    outAt (F := Ideal) m c t (ix3 s h o)
      = linP m c t s (Cert.Spec.lo h) o * Ideal.logistic (linP m c t s (Cert.Spec.hi h) o) := by
  rw [outAt_eq]
  rfl

end Cert.KernelIdeal.Point

end
-- ==== Proof.KBlocks.lean ====
/-
  The kernel's windows read at an index. The grid has 31 points; at point t the main window is frames
  264·t .. 264·t + 263 of the input, the tail window frames 264·(t + 1) .. 264·(t + 1) + 7, the weight and bias
  windows the whole arrays, and the output window steps 88·t .. 88·t + 87 of the result. An element of a block
  sits in its array, on each axis, at the block index times the block's size plus its own coordinate.
-/
import proofs.«176770_j1400159338932_2_alg».proof.Proof.Gen.KernelIdeal.Launch
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F]

/-- A grid point is below 31. -/
theorem t_lt (t : Fin cfg0.N) : t.val < 31 := lt_of_lt_of_eq t.isLt N_0

/-- The printed index maps, decided over the grid: the block index of each window at point t. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 33 * (t.val + 1) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-! ## The tail window: frames 264·(t + 1) .. 264·(t + 1) + 7 -/

theorem blk1_read (A : S32x8192x80.Idx → Elt F .f32) (t : Fin cfg0.N) (r : Fin 32) (q : Fin 8) (f : Fin 80) :
    ((cfg0.win 1).blk t).view.read (Elt F) A (ix3 r q f)
      = A (ix3 r (⟨264 * (t.val + 1) + q.val, by have := t_lt t; omega⟩ : Fin 8192) f) := by
  obtain ⟨_, _, _, e0, e1, e2, _⟩ := idx_facts t
  show A (((cfg0.win 1).blk t).view.emb (ix3 r q f)) = _
  refine congrArg A (funext fun a => Fin.ext ?_)
  match a with
  | ⟨0, _⟩ => show win0_1.index t (0 : Fin 3) * 32 + 1 * r.val = r.val; omega
  | ⟨1, _⟩ => show win0_1.index t (1 : Fin 3) * 8 + 1 * q.val = 264 * (t.val + 1) + q.val; omega
  | ⟨2, _⟩ => show win0_1.index t (2 : Fin 3) * 80 + 1 * f.val = f.val; omega

/-! ## The weight and bias windows: the whole arrays -/

theorem blk2_read (A : S640x1024.Idx → Elt F .bf16) (t : Fin cfg0.N) (k : Fin 640) (o : Fin 1024) :
    ((cfg0.win 2).blk t).view.read (Elt F) A (ix2 k o) = A (ix2 k o) := by
  obtain ⟨_, _, _, _, _, _, e0, e1, _⟩ := idx_facts t
  show A (((cfg0.win 2).blk t).view.emb (ix2 k o)) = _
  refine congrArg A (funext fun a => Fin.ext ?_)
  match a with
  | ⟨0, _⟩ => show win0_2.index t (0 : Fin 2) * 640 + 1 * k.val = k.val; omega
  | ⟨1, _⟩ => show win0_2.index t (1 : Fin 2) * 1024 + 1 * o.val = o.val; omega

theorem blk3_read (A : S1x1024.Idx → Elt F .f32) (t : Fin cfg0.N) (z : Fin 1) (o : Fin 1024) :
    ((cfg0.win 3).blk t).view.read (Elt F) A (ix2 z o) = A (ix2 z o) := by
  obtain ⟨_, _, _, _, _, _, _, _, e0, e1, _⟩ := idx_facts t
  show A (((cfg0.win 3).blk t).view.emb (ix2 z o)) = _
  refine congrArg A (funext fun a => Fin.ext ?_)
  match a with
  | ⟨0, _⟩ => show win0_3.index t (0 : Fin 2) * 1 + 1 * z.val = z.val; omega
  | ⟨1, _⟩ => show win0_3.index t (1 : Fin 2) * 1024 + 1 * o.val = o.val; omega

/-! ## The output window: steps 88·t .. 88·t + 87 -/

/-- An index of the result is in point t's block iff its step is. -/
theorem mem_blk4 (t : Fin cfg0.N) (i : S2728x16x1024.Idx) :
    i ∈ ((cfg0.win 4).blk t).view.set ↔ 88 * t.val ≤ (i 0).val ∧ (i 0).val < 88 * t.val + 88 := by
  obtain ⟨_, _, _, _, _, _, _, _, _, _, e0, e1, e2⟩ := idx_facts t
  show i ∈ ((View.whole main_v6).slice (win0_4.rect t)).set ↔ _
  rw [View.set_slice_whole, Rect.mem_set_unit]
  constructor
  · intro h
    have h0 : win0_4.index t (0 : Fin 3) * 88 ≤ (i 0).val ∧ (i 0).val < win0_4.index t (0 : Fin 3) * 88 + 88 := h 0
    omega
  · intro h a
    match a with
    | ⟨0, _⟩ =>
      show win0_4.index t (0 : Fin 3) * 88 ≤ (i 0).val ∧ (i 0).val < win0_4.index t (0 : Fin 3) * 88 + 88
      omega
    | ⟨1, _⟩ =>
      show win0_4.index t (1 : Fin 3) * 16 ≤ (i 1).val ∧ (i 1).val < win0_4.index t (1 : Fin 3) * 16 + 16
      have hi : (i 1).val < 16 := (i 1).isLt
      omega
    | ⟨2, _⟩ =>
      show win0_4.index t (2 : Fin 3) * 1024 ≤ (i 2).val ∧ (i 2).val < win0_4.index t (2 : Fin 3) * 1024 + 1024
      have hi : (i 2).val < 1024 := (i 2).isLt
      omega

/-- Element (s, h, o) of point t's block is step 88·t + s of the result. -/
theorem blk4_emb (t : Fin cfg0.N) (s : Fin 88) (h : Fin 16) (o : Fin 1024) :
    ((cfg0.win 4).blk t).view.emb (ix3 s h o)
      = ix3 (⟨88 * t.val + s.val, by have := t_lt t; omega⟩ : Fin 2728) h o := by
  obtain ⟨_, _, _, _, _, _, _, _, _, _, e0, e1, e2⟩ := idx_facts t
  refine funext fun a => Fin.ext ?_
  match a with
  | ⟨0, _⟩ => show win0_4.index t (0 : Fin 3) * 88 + 1 * s.val = 88 * t.val + s.val; omega
  | ⟨1, _⟩ => show win0_4.index t (1 : Fin 3) * 16 + 1 * h.val = h.val; omega
  | ⟨2, _⟩ => show win0_4.index t (2 : Fin 3) * 1024 + 1 * o.val = o.val; omega

/-! ## The main window: frames 264·t .. 264·t + 263, none of the 31 blocks past the array's end -/

/-- No block of the main window is cut: 31 · 264 = 8184 ≤ 8192. -/
theorem clip0_none : ∀ (t : Fin cfg0.N) (a : Fin 3), win0_0.clip (grid0.coords t) a = none :=
  (by decide +kernel : ∀ (t : Fin grid0.N) (a : Fin 3), _)

/-- So the staging buffer after the fetch at point t holds the block, whatever it held before. -/
theorem fill0_read (A : S32x8192x80.Idx → Elt F .f32) (d : S32x264x80.Idx → Elt F .f32) (t : Fin cfg0.N)
    (r : Fin 32) (q : Fin 264) (f : Fin 80) :
    win0_0.fill (grid0.coords t) d (((cfg0.win 0).blk t).view.read (Elt F) A) (ix3 r q f)
      = A (ix3 r (⟨264 * t.val + q.val, by have := t_lt t; omega⟩ : Fin 8192) f) := by
  obtain ⟨e0, e1, e2, _⟩ := idx_facts t
  have hm : win0_0.moved (grid0.coords t) (ix3 r q f) = true :=
    (win0_0.moved_iff _ _).mpr fun a => by
      show (ix3 r q f a).val < (win0_0.clip (grid0.coords t) a).extent (S32x264x80.size a)
      rw [clip0_none t a]
      exact (ix3 r q f a).isLt
  unfold Pipeline.Window.fill
  rw [dif_pos hm]
  show A (((cfg0.win 0).blk t).view.emb _) = _
  refine congrArg A (funext fun a => Fin.ext ?_)
  match a with
  | ⟨0, _⟩ => show win0_0.index t (0 : Fin 3) * 32 + 1 * r.val = r.val; omega
  | ⟨1, _⟩ => show win0_0.index t (1 : Fin 3) * 264 + 1 * q.val = 264 * t.val + q.val; omega
  | ⟨2, _⟩ => show win0_0.index t (2 : Fin 3) * 80 + 1 * f.val = f.val; omega

end Cert.KernelIdeal.Blocks

end
-- ==== Proof.Pay1.lean ====
/-
  The kernel body's first payload read at an index, at the ideal instance (floats are extended reals, a change of
  float format is the identity).

  The payload joins the main block [32, 264, 80] and the tail block [32, 8, 80] along the frame axis into a slab
  [32, 272, 80], transposes it to [272, 32, 80], and for k = 0..7 takes frames k..k+263, views them as
  [88, 3, 32, 80], keeps the first of each three, and lays the eight results side by side on the feature axis. So
  entry (s, r, j) with j = 80·k + f is slab[r, 3s + k, f]: eight consecutive frames of 80 features, the window
  advancing by three frames per step.
-/
import proofs.«176770_j1400159338932_2_alg».proof.Proof.Gen.KernelIdeal.Skeleton
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- The slab of 272 frames at batch row r, frame q, feature f: the main block's frame while q < 264, the tail
    block's frame q - 264 after. -/
def slab (v0 : Vec Ideal S32x264x80 .f32) (v1 : Vec Ideal S32x8x80 .f32) (r : Fin 32) (q : Fin 272) (f : Fin 80) : EReal :=
  if h : q.val < 264 then v0 (ix3 r ⟨q.val, h⟩ f) else v1 (ix3 r ⟨q.val - 264, by omega⟩ f)

/-! ## The two blocks joined along the frame axis -/

/-- The join, [32, 272, 80]. -/
def cat (v0 : Vec Ideal S32x264x80 .f32) (v1 : Vec Ideal S32x8x80 .f32) : FVec Ideal S32x272x80 .f32 :=
  concatenate S32x272x80 1 [⟨S32x264x80, v0⟩, ⟨S32x8x80, v1⟩] concatenates_S32x264x80_S32x8x80_S32x272x80_d1

theorem cat_apply (v0 : Vec Ideal S32x264x80 .f32) (v1 : Vec Ideal S32x8x80 .f32) (r : Fin 32) (q : Fin 272) (f : Fin 80) :
    cat v0 v1 (ix3 r q f) = slab v0 v1 r q f := by
  unfold cat slab
  by_cases h : q.val < 264
  · rw [dif_pos h]
    refine concatenate_pair_apply_left 1 v0 v1 _ (ix3 r q f) rfl (ix3 r (⟨q.val, h⟩ : Fin 264) f) fun b => ?_
    match b with
    | ⟨0, _⟩ => rfl
    | ⟨1, _⟩ => rfl
    | ⟨2, _⟩ => rfl
  · rw [dif_neg h]
    refine concatenate_pair_apply_right 1 v0 v1 _ (ix3 r q f) rfl rfl (ix3 r (⟨q.val - 264, by omega⟩ : Fin 8) f)
      (fun b hb => ?_) ?_
    · match b, hb with
      | ⟨0, _⟩, _ => rfl
      | ⟨1, _⟩, hb => exact absurd rfl hb
      | ⟨2, _⟩, _ => rfl
    · show q.val - 264 + 264 = q.val
      omega

/-! ## The slab with the frame axis first -/

/-- The join, rounded (the identity here) and transposed to [272, 32, 80]. -/
def slabT (v0 : Vec Ideal S32x264x80 .f32) (v1 : Vec Ideal S32x8x80 .f32) : FVec Ideal S272x32x80 .bf16 :=
  transpose S272x32x80 [1, 0, 2] (truncf .bf16 (cat v0 v1) bitsLt_bf16_f32) transposes_S32x272x80_p1_0_2_S272x32x80

theorem slabT_apply (v0 : Vec Ideal S32x264x80 .f32) (v1 : Vec Ideal S32x8x80 .f32) (q : Fin 272) (r : Fin 32) (f : Fin 80) :
    slabT v0 v1 (ix3 q r f) = slab v0 v1 r q f := by
  unfold slabT
  refine (transpose_apply [1, 0, 2] _ _ (ix3 q r f) (ix3 r q f) fun b => ?_).trans
    ((truncf_apply (cat v0 v1) bitsLt_bf16_f32 (ix3 r q f)).trans (cat_apply v0 v1 r q f))
  match b with
  | ⟨0, _⟩ => rfl
  | ⟨1, _⟩ => rfl
  | ⟨2, _⟩ => rfl

/-! ## One of the eight pieces: every third frame, from frame n on -/

/-- Frames n..n+263 viewed as [88, 3, 32, 80], the first of each three kept: [88, 32, 80]. -/
def piece (x : FVec Ideal S272x32x80 .bf16) (off : Fin S272x32x80.rank → Nat) (h : S272x32x80.Slices off S264x32x80) :
    FVec Ideal S88x32x80 .bf16 :=
  shapeCast S88x32x80
    (extractStridedSlice S88x1x32x80 ![0, 0, 0, 0]
      (shapeCast S88x3x32x80 (extractStridedSlice S264x32x80 off x h) shapeCasts_S264x32x80_S88x3x32x80)
      slices_S88x3x32x80_o0_0_0_0_S88x1x32x80)
    shapeCasts_S88x1x32x80_S88x32x80

/-- Piece n at (s, r, f) is frame 3s + n. -/
theorem piece_apply (x : FVec Ideal S272x32x80 .bf16) (n : Fin 8) (h : S272x32x80.Slices ![n.val, 0, 0] S264x32x80)
    (s : Fin 88) (r : Fin 32) (f : Fin 80) :
    piece x ![n.val, 0, 0] h (ix3 s r f) = x (ix3 (⟨3 * s.val + n.val, by omega⟩ : Fin 272) r f) := by
  unfold piece
  refine (shapeCast_apply _ _ (ix3 s r f) (ix4 s (0 : Fin 1) r f) ?_).trans ?_
  · rw [Shape.rowMajor_val_four, Shape.rowMajor_val_three]
    show ((s.val * 1 + 0) * 32 + r.val) * 80 + f.val = (s.val * 32 + r.val) * 80 + f.val
    omega
  refine (extractStridedSlice_apply _ _ _ (ix4 s (0 : Fin 1) r f) (ix4 s (0 : Fin 3) r f) fun a => ?_).trans ?_
  · match a with
    | ⟨0, _⟩ => show s.val = 0 + s.val; omega
    | ⟨1, _⟩ => rfl
    | ⟨2, _⟩ => show r.val = 0 + r.val; omega
    | ⟨3, _⟩ => show f.val = 0 + f.val; omega
  refine (shapeCast_apply _ _ (ix4 s (0 : Fin 3) r f) (ix3 (⟨3 * s.val, by omega⟩ : Fin 264) r f) ?_).trans ?_
  · rw [Shape.rowMajor_val_three, Shape.rowMajor_val_four]
    show (3 * s.val * 32 + r.val) * 80 + f.val = ((s.val * 3 + 0) * 32 + r.val) * 80 + f.val
    omega
  refine extractStridedSlice_apply _ x h (ix3 (⟨3 * s.val, by omega⟩ : Fin 264) r f)
    (ix3 (⟨3 * s.val + n.val, by omega⟩ : Fin 272) r f) fun a => ?_
  match a with
  | ⟨0, _⟩ => show 3 * s.val + n.val = n.val + 3 * s.val; omega
  | ⟨1, _⟩ => show r.val = 0 + r.val; omega
  | ⟨2, _⟩ => show f.val = 0 + f.val; omega

/-! ## Eight pieces side by side on the feature axis -/

/-- Eight [88, 32, 80] pieces joined on the last axis, at column j: piece j / 80 at column j % 80. -/
theorem stack_apply (p : Fin 8 → FVec Ideal S88x32x80 .bf16)
    (h : Shape.Concatenates ((List.ofFn fun n : Fin 8 => (⟨S88x32x80, p n⟩ : (s : Shape) × (s.Idx → Ideal .bf16))).map (·.1))
      S88x32x640 2)
    (s : Fin 88) (r : Fin 32) (j : Fin 640) :
    concatenate S88x32x640 2 (List.ofFn fun n : Fin 8 => (⟨S88x32x80, p n⟩ : (s : Shape) × (s.Idx → Ideal .bf16))) h (ix3 s r j)
      = p ⟨j.val / 80, by omega⟩ (ix3 s r (⟨j.val % 80, Nat.mod_lt _ (by decide)⟩ : Fin 80)) := by
  refine concatenate_ofFn_apply 2 p h rfl 80 rfl (ix3 s r j) ⟨j.val / 80, by omega⟩ rfl
    (ix3 s r (⟨j.val % 80, Nat.mod_lt _ (by decide)⟩ : Fin 80)) rfl fun b hb => ?_
  match b, hb with
  | ⟨0, _⟩, _ => rfl
  | ⟨1, _⟩, _ => rfl
  | ⟨2, _⟩, hb => exact absurd rfl hb

/-- Each of the eight offsets leaves 264 frames inside the 272. -/
theorem slices_all : ∀ n : Fin 8, S272x32x80.Slices ![n.val, 0, 0] S264x32x80 := by decide

/-- The eight pieces of the transposed slab, side by side. -/
def stack (v0 : Vec Ideal S32x264x80 .f32) (v1 : Vec Ideal S32x8x80 .f32) : FVec Ideal S88x32x640 .bf16 :=
  concatenate S88x32x640 2
    (List.ofFn fun n : Fin 8 =>
      (⟨S88x32x80, piece (slabT v0 v1) ![n.val, 0, 0] (slices_all n)⟩ : (s : Shape) × (s.Idx → Ideal .bf16)))
    concatenates_S88x32x80_S88x32x80_S88x32x80_S88x32x80_S88x32x80_S88x32x80_S88x32x80_S88x32x80_S88x32x640_d2

/-! ## The payload -/

/-- The payload is the eight pieces side by side (its last reshape is to the same shape). -/
theorem pay1_eq (v0 : Vec Ideal S32x264x80 .f32) (v1 : Vec Ideal S32x8x80 .f32) :
    k0_pay1 (F := Ideal) v0 v1 = stack v0 v1 :=
  shapeCast_self (stack v0 v1) shapeCasts_S88x32x640_S88x32x640

/-- THE PAYLOAD AT (s, r, j): frame 3s + j / 80 of the slab, feature j % 80. -/
theorem pay1_apply (v0 : Vec Ideal S32x264x80 .f32) (v1 : Vec Ideal S32x8x80 .f32) (s : Fin 88) (r : Fin 32) (j : Fin 640) :
    k0_pay1 (F := Ideal) v0 v1 (ix3 s r j)
      = slab v0 v1 r ⟨3 * s.val + j.val / 80, by omega⟩ ⟨j.val % 80, Nat.mod_lt _ (by decide)⟩ := by
  rw [pay1_eq]
  unfold stack
  refine (stack_apply _ _ s r j).trans ?_
  refine (piece_apply (slabT v0 v1) ⟨j.val / 80, by omega⟩ _ s r ⟨j.val % 80, Nat.mod_lt _ (by decide)⟩).trans ?_
  exact slabT_apply v0 v1 _ r _

end Cert.KernelIdeal.Pay

end
-- ==== Proof.KLin.lean ====
/-
  The linear layer the kernel computes at a grid point is the specification's. At point t the stacked-frame slab
  holds input frames 264·t .. 264·t + 271 (the main block, then the tail block, both blocks of the one input array),
  so time step s of the point reads frame 264·t + 3s + k / 80 = 3·(88·t + s) + k / 80 at feature k % 80: the
  specification's window for time step 88·t + s. The weight block is the transposed weight argument and the bias
  block the bias argument as a row.
-/
import proofs.«176770_j1400159338932_2_alg».proof.Proof.KData
import proofs.«176770_j1400159338932_2_alg».proof.Proof.KHost
import proofs.«176770_j1400159338932_2_alg».proof.Proof.KBlocks
import proofs.«176770_j1400159338932_2_alg».proof.Proof.Pay1
import proofs.«176770_j1400159338932_2_alg».proof.Proof.Spec

set_option maxRecDepth 16384

noncomputable section

open scoped BigOperators

namespace Cert.KernelIdeal.Bridge

open Cert.KernelIdeal Cert.KernelIdeal.Gen Cert.KernelIdeal.Hand Cert.KernelIdeal.Blocks
open Idealize.ShloMosaic Idealize.ShloMosaic.TcCoe Idealize.ShloMosaic.ValueIdx Idealize.SL.Sem

variable (m : (ℓ : Loc nD τ sig) → Buf (Elt Ideal) ℓ) (c : Dev nD)

/-! ## The four input blocks at a point, read off the argument arrays -/

/-- The main block at point t is frames 264·t .. 264·t + 263 of the input. -/
theorem blk0_apply (t : Fin cfg0.N) (r : Fin 32) (q : Fin 264) (f : Fin 80) :
    blk0 (F := Ideal) m c t (ix3 r q f)
      = (m ((c : Thread nD τ).loc main_arg0) : S32x8192x80.Idx → EReal)
          (ix3 r (⟨264 * t.val + q.val, by have := t_lt t; omega⟩ : Fin 8192) f) :=
  (fill0_read (V m c (Pipeline.arrRef spec0 0)) _ t r q f).trans (congrFun (V_main_arg0 m c) _)

/-- The tail block at point t is frames 264·(t + 1) .. 264·(t + 1) + 7 of the same input. -/
theorem blk1_apply (t : Fin cfg0.N) (r : Fin 32) (q : Fin 8) (f : Fin 80) :
    iblk (F := Ideal) m c 1 t (ix3 r q f)
      = (m ((c : Thread nD τ).loc main_arg0) : S32x8192x80.Idx → EReal)
          (ix3 r (⟨264 * (t.val + 1) + q.val, by have := t_lt t; omega⟩ : Fin 8192) f) :=
  (blk1_read (V m c (Pipeline.arrRef spec0 1)) t r q f).trans (congrFun (V_main_arg0 m c) _)

/-- The weight block at every point is the weight argument transposed. -/
theorem blk2_apply (t : Fin cfg0.N) (k : Fin 640) (o : Fin 1024) :
    iblk (F := Ideal) m c 2 t (ix2 k o)
      = (m ((c : Thread nD τ).loc main_arg2) : S1024x640.Idx → EReal) (ix2 o k) :=
  (blk2_read (V m c (Pipeline.arrRef spec0 2)) t k o).trans (HostVal.V_v4_apply m c k o)

/-- The bias block at every point is the bias argument as a row. -/
theorem blk3_apply (t : Fin cfg0.N) (o : Fin 1024) :
    iblk (F := Ideal) m c 3 t (ix2 (0 : Fin 1) o)
      = (m ((c : Thread nD τ).loc main_arg3) : S1024.Idx → EReal) (ix1 o) :=
  (blk3_read (V m c (Pipeline.arrRef spec0 3)) t (0 : Fin 1) o).trans (HostVal.V_v5_apply m c o)

/-! ## The stacked frames at a point are the specification's window -/

theorem frames_apply (t : Fin cfg0.N) (s : Fin 88) (r : Fin 32) (k : Fin 640) :
    k0_pay1 (F := Ideal) (blk0 m c t) (iblk m c 1 t) (ix3 s r k)
      = (m ((c : Thread nD τ).loc main_arg0) : S32x8192x80.Idx → EReal)
          (ix3 r (Cert.Spec.rowIx (⟨88 * t.val + s.val, by have := t_lt t; omega⟩ : Fin 2728) k) (Cert.Spec.colIx k)) := by
  have ht := t_lt t
  refine (Pay.pay1_apply _ _ s r k).trans ?_
  unfold Pay.slab
  by_cases h : 3 * s.val + k.val / 80 < 264
  · rw [dif_pos h]
    refine (blk0_apply m c t r ⟨3 * s.val + k.val / 80, h⟩ _).trans ?_
    refine congrArg (fun q => (m ((c : Thread nD τ).loc main_arg0) : S32x8192x80.Idx → EReal) (ix3 r q (Cert.Spec.colIx k)))
      (Fin.ext ?_)
    show 264 * t.val + (3 * s.val + k.val / 80) = 3 * (88 * t.val + s.val) + k.val / 80
    omega
  · rw [dif_neg h]
    refine (blk1_apply m c t r ⟨3 * s.val + k.val / 80 - 264, by omega⟩ _).trans ?_
    refine congrArg (fun q => (m ((c : Thread nD τ).loc main_arg0) : S32x8192x80.Idx → EReal) (ix3 r q (Cert.Spec.colIx k)))
      (Fin.ext ?_)
    show 264 * (t.val + 1) + (3 * s.val + k.val / 80 - 264) = 3 * (88 * t.val + s.val) + k.val / 80
    omega

/-! ## The linear layer at a point -/

/-- The kernel's linear layer at point t, time step s of the point, batch row r, output feature o, is the
    specification's at time step 88·t + s. -/
theorem lin_bridge (t : Fin cfg0.N) (s : Fin 88) (r : Fin 32) (o : Fin 1024) :
    (∑ k : Fin 640, k0_pay1 (F := Ideal) (blk0 m c t) (iblk m c 1 t) (ix3 s r k) * (iblk m c 2 t) (ix2 k o))
        + (iblk m c 3 t) (ix2 (0 : Fin 1) o)
      = Cert.Spec.lin (m ((c : Thread nD τ).loc main_arg0)) (m ((c : Thread nD τ).loc main_arg2))
          (m ((c : Thread nD τ).loc main_arg3)) (⟨88 * t.val + s.val, by have := t_lt t; omega⟩ : Fin 2728) r o := by
  unfold Cert.Spec.lin
  refine congrArg₂ (· + ·) (Finset.sum_congr rfl fun k _ => ?_) (blk3_apply m c t o)
  exact congrArg₂ (· * ·) (frames_apply m c t s r k) (blk2_apply m c t k o)

end Cert.KernelIdeal.Bridge

end
-- ==== Proof.KFinal.lean ====
/-
  From the value at each grid point to the whole result array. Point t writes back block t of the result (time
  steps 88·t .. 88·t + 87); the 31 blocks cover the 2728 time steps, so if every point's block is the
  specification's there, the array after the run is the specification's result.
-/
import proofs.«176770_j1400159338932_2_alg».proof.Proof.KLin

set_option maxRecDepth 16384

noncomputable section

open scoped BigOperators

namespace Cert.KernelIdeal.Bridge

open Cert.KernelIdeal Cert.KernelIdeal.Gen Cert.KernelIdeal.Hand Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- What point t writes back is block t of one whole-array function G, when the output buffer after the body at
    every point is G on the block's time steps. -/
theorem flushed4_eq (G : S2728x16x1024.Idx → EReal)
    (hG : ∀ (t : Fin cfg0.N) (s : Fin 88) (h : Fin 16) (o : Fin 1024),
      outAt (F := Ideal) m c t (ix3 s h o) = G (ix3 (⟨88 * t.val + s.val, by have := t_lt t; omega⟩ : Fin 2728) h o))
    (t : Fin cfg0.N) :
    (dats (F := Ideal) m 0 c).flushed 4 t = ((cfg0.win 4).blk t).view.read (Elt Ideal) G := by
  show (cfg0.win 4).cut (grid0.coords t) ((dats (F := Ideal) m 0 c).after 4 t) = _
  rw [after0_4]
  funext y
  obtain ⟨s, h, o, rfl⟩ : ∃ (s : Fin 88) (h : Fin 16) (o : Fin 1024), y = ix3 s h o :=
    ⟨y 0, y 1, y 2, eq_ix3 (n0 := 88) (n1 := 16) (n2 := 1024) y⟩
  show outAt (F := Ideal) m c t (ix3 s h o) = G (((cfg0.win 4).blk t).view.emb (ix3 s h o))
  rw [blk4_emb]
  exact hG t s h o

/-- Every time step of the result is in some point's block: step i is in block i / 88. -/
theorem cover4 (i : S2728x16x1024.Idx) :
    ∃ t : Fin cfg0.N, (cfg0.win 4).flush t = true ∧ i ∈ ((cfg0.win 4).blk t).view.set := by
  have hi : (i 0).val < 2728 := (i 0).isLt
  refine ⟨⟨(i 0).val / 88, lt_of_lt_of_eq (by omega : (i 0).val / 88 < 31) N_0.symm⟩, flush0_4 _, ?_⟩
  rw [mem_blk4]
  show 88 * ((i 0).val / 88) ≤ (i 0).val ∧ (i 0).val < 88 * ((i 0).val / 88) + 88
  omega

/-- THE RESULT ARRAY after the run is the specification's result, when the output buffer after the body at every
    point is the specification's on the block's time steps. -/
theorem final_out
    (hout : ∀ (t : Fin cfg0.N) (s : Fin 88) (h : Fin 16) (o : Fin 1024),
      outAt (F := Ideal) m c t (ix3 s h o)
        = Cert.Spec.Gat (m ((c : Thread nD τ).loc main_arg0)) (m ((c : Thread nD τ).loc main_arg2))
            (m ((c : Thread nD τ).loc main_arg3)) (⟨88 * t.val + s.val, by have := t_lt t; omega⟩ : Fin 2728) h o) :
    @Eq (S2728x16x1024.Idx → EReal) ((dats (F := Ideal) m 0 c).arrAt 4 cfg0.N)
      (Cert.Spec.G (m ((c : Thread nD τ).loc main_arg0)) (m ((c : Thread nD τ).loc main_arg2))
        (m ((c : Thread nD τ).loc main_arg3))) :=
  (dats (F := Ideal) m 0 c).arrAt_eq_of_cover 4 _
    (fun t _ => flushed4_eq m c _ (fun t s h o => (hout t s h o).trans (Cert.Spec.G_ix3 _ _ _ _ h o).symm) t)
    (fun i => cover4 i)

/-- The hypothesis of final_out from the point value in the kernel's own terms: the gated product of the
    kernel's linear layer at the two paired batch rows. -/
theorem hout_of_point
    (hpt : ∀ (t : Fin cfg0.N) (s : Fin 88) (h : Fin 16) (o : Fin 1024),
      outAt (F := Ideal) m c t (ix3 s h o)
        = ((∑ k : Fin 640, k0_pay1 (F := Ideal) (blk0 m c t) (iblk m c 1 t) (ix3 s (Cert.Spec.lo h) k) * (iblk m c 2 t) (ix2 k o))
            + (iblk m c 3 t) (ix2 (0 : Fin 1) o))
          * Ideal.logistic ((∑ k : Fin 640, k0_pay1 (F := Ideal) (blk0 m c t) (iblk m c 1 t) (ix3 s (Cert.Spec.hi h) k) * (iblk m c 2 t) (ix2 k o))
            + (iblk m c 3 t) (ix2 (0 : Fin 1) o)))
    (t : Fin cfg0.N) (s : Fin 88) (h : Fin 16) (o : Fin 1024) :
    outAt (F := Ideal) m c t (ix3 s h o)
      = Cert.Spec.Gat (m ((c : Thread nD τ).loc main_arg0)) (m ((c : Thread nD τ).loc main_arg2))
          (m ((c : Thread nD τ).loc main_arg3)) (⟨88 * t.val + s.val, by have := t_lt t; omega⟩ : Fin 2728) h o := by
  rw [hpt t s h o, lin_bridge m c t s (Cert.Spec.lo h) o, lin_bridge m c t s (Cert.Spec.hi h) o]
  rfl

end Cert.KernelIdeal.Bridge

end
-- ==== Proof.lean ====
/-
  The certificate of the fused frame-stacking + linear + gated-linear-unit kernel against its jnp reference.

  Both programs compute, from the input frames x : f32[32, 8192, 80], the weight W : f32[1024, 640] and the bias
  b : f32[1024], the array out[t, h, o] = lin t h o · σ (lin t (h + 16) o) over t < 2728, h < 16, o < 1024, where
  lin t r o = (∑ k < 640, x[r, 3t + k / 80, k % 80] · W[o, k]) + b[o] and σ is the logistic function, and from the
  lengths the array `lengths // 3 - 2` (Proof/Spec.lean states both once). The kernel reads each tile of 88 output
  steps through two windows of ONE array — a main block of 264 input rows and a tail block of the next 8 rows —, builds
  the eight-frame windows in a scratch buffer and multiplies by the transposed, bf16-rounded weight in four chunks of 22
  steps; the reference slices, reshapes and concatenates the whole array and calls one dot_general. At the ideal
  instance a change of float format is the identity and a matrix product is the plain sum over the contraction, in the
  same order on both sides, so the two results agree index by index with no appeal to finiteness of the inputs; the
  logistic function of the kernel is the reference's 1 / (1 + e^(-y)) on every extended real.

  The three frames: each program runs to the end, faults nowhere and leaves its arguments unchanged. For the two
  kernel programs this is the pipeline's launch theorem for windows that share an array, over the body's run at a
  symbolic grid point (Proof/KRun … KLaunch at the ideal instance, Proof/BRun … BLaunch at the word-level one); for the
  reference it is its run as a straight line of host operations (Proof/RefRun). The idealization rewrote no operation,
  so `preserves` has nothing to state.
-/
import proofs.«176770_j1400159338932_2_alg».proof.Defs
import proofs.«176770_j1400159338932_2_alg».proof.Proof.Gen.Kernel
import proofs.«176770_j1400159338932_2_alg».proof.Proof.Gen.KernelIdeal
import proofs.«176770_j1400159338932_2_alg».proof.Proof.Gen.ReferenceIdeal
import proofs.«176770_j1400159338932_2_alg».proof.Proof.Gen.Pre_finite_inputs
import proofs.«176770_j1400159338932_2_alg».proof.Proof.BLaunch
import proofs.«176770_j1400159338932_2_alg».proof.Proof.KLaunch
import proofs.«176770_j1400159338932_2_alg».proof.Proof.RefRun
import proofs.«176770_j1400159338932_2_alg».proof.Proof.RefValue
import proofs.«176770_j1400159338932_2_alg».proof.Proof.KHost
import proofs.«176770_j1400159338932_2_alg».proof.Proof.KPoint
import proofs.«176770_j1400159338932_2_alg».proof.Proof.KLin
import proofs.«176770_j1400159338932_2_alg».proof.Proof.KFinal
import Idealize.ShloMosaic.Adequacy
import Idealize.ShloMosaic.Init

noncomputable section

namespace Cert.Proof

open Idealize.ShloMosaic Idealize.ShloMosaic.TcCoe Idealize.SL.Sem

/-- The word-level kernel program runs to the end and leaves its arguments unchanged. -/
theorem frame_k : Cert.frame_Kernel := fun m ρ _ => Cert.Kernel.Hand.frame m ρ
/-- So does its idealization. -/
theorem frame_ki : Cert.frame_KernelIdeal := fun m ρ _ => Cert.KernelIdeal.Hand.frame m ρ
/-- The reference: its run with the results dropped. -/
theorem frame_ri : Cert.frame_ReferenceIdeal := fun m ρ _ =>
  (θ_run Cert.ReferenceIdeal.defs _ _).mono (fun _ h c => (h c).2.2) (Cert.ReferenceIdeal.RefRun.run m ρ)
/-- The idealization rewrote no operation. -/
theorem preserves : Cert.preserves_Kernel_KernelIdeal := trivial

open Cert.KernelIdeal in
/-- The kernel program's results: the result array is the specification's function of the argument arrays (block by
    block what the body left, pieced together over the 31 points), the lengths result the host's own operations. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v6) = Cert.Spec.G (m ((c.tc : Thread nD τ).loc main_arg0)) (m ((c.tc : Thread nD τ).loc main_arg2)) (m ((c.tc : Thread nD τ).loc main_arg3))
        ∧ r.2.mem ((c.tc : Thread nD τ).loc main_v2) = Cert.Spec.outLen (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  refine (θ_run (Cert.KernelIdeal.defs (F := Ideal)) _ _).mono (fun r h c => ⟨?_, ?_, ?_, ?_, ?_, ?_⟩) (Cert.KernelIdeal.Hand.run_main (F := Ideal) m ρ)
  · exact ((h c).1 4).trans (Cert.KernelIdeal.Bridge.final_out m c (Cert.KernelIdeal.Bridge.hout_of_point m c (fun t s h o => Cert.KernelIdeal.Point.outAt_apply m c t s h o)))
  · exact ((h c).2 main_v2 (Pipeline.mem_restRefs_of main_v2 (by decide) (by decide))).trans (Cert.KernelIdeal.HostVal.V_v2 m c)
  · exact ((h c).1 0).trans (((Cert.KernelIdeal.Hand.dats m 0 c).arrAt_in 0 rfl _).trans ((Cert.KernelIdeal.Hand.A_eq m c 0).trans (Cert.KernelIdeal.Hand.V_main_arg0 m c)))
  · exact ((h c).2 main_arg1 (Pipeline.mem_restRefs_of main_arg1 (by decide) (by decide))).trans (Cert.KernelIdeal.Hand.V_main_arg1 m c)
  · exact ((h c).2 main_arg2 (Pipeline.mem_restRefs_of main_arg2 (by decide) (by decide))).trans (Cert.KernelIdeal.Hand.V_main_arg2 m c)
  · exact ((h c).2 main_arg3 (Pipeline.mem_restRefs_of main_arg3 (by decide) (by decide))).trans (Cert.KernelIdeal.Hand.V_main_arg3 m c)

/-- Run from memories that agree on the arguments, the two idealized programs end with equal results: both result
    arrays are the specification's function of the same argument arrays. -/
theorem algebraic : Cert.algebraic_KernelIdeal_ReferenceIdeal := by
  intro m ρ m' ρ' _ hagree
  refine ⟨_, _, kernel_run m ρ, ?_⟩
  refine (θ_run (Cert.ReferenceIdeal.defs (F := Ideal)) _ _).mono
    (fun r h c => ⟨?_, ?_, (h c).2.2.1, (h c).2.2.2.1, (h c).2.2.2.2.1, (h c).2.2.2.2.2⟩) (Cert.ReferenceIdeal.RefRun.run m' ρ')
  · rw [(h c).1, Cert.ReferenceIdeal.RefValue.outF_eq, (hagree c).1, (hagree c).2.2.1, (hagree c).2.2.2]
  · rw [(h c).2.1, Cert.ReferenceIdeal.RefValue.outI_eq, (hagree c).2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
